-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x512 : Shape := ⟨3, ![16, 2048, 512]⟩
abbrev S512x512 : Shape := ⟨2, ![512, 512]⟩
abbrev S512 : Shape := ⟨1, ![512]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_v33

def fn {F : FTy → Type} [FloatOps F] (main_arg0 : FVec F S16x2048x512 .f32) (main_arg1 : FVec F S16x2048x512 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x512 .f32 := Host.absf main_arg1
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S16x2048x512 : Shape := ⟨3, ![16, 2048, 512]⟩
abbrev S512x512 : Shape := ⟨2, ![512, 512]⟩
abbrev S512 : Shape := ⟨1, ![512]⟩
abbrev S32768x512 : Shape := ⟨2, ![32768, 512]⟩
abbrev S1x512 : Shape := ⟨2, ![1, 512]⟩
abbrev S1024x512 : Shape := ⟨2, ![1024, 512]⟩
abbrev S16x512x2048 : Shape := ⟨3, ![16, 512, 2048]⟩
abbrev S1x256x512 : Shape := ⟨3, ![1, 256, 512]⟩
abbrev S1x512x2048 : Shape := ⟨3, ![1, 512, 2048]⟩
abbrev S1x2048x512 : Shape := ⟨3, ![1, 2048, 512]⟩
abbrev S256x512 : Shape := ⟨2, ![256, 512]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S16x1048576 : Shape := ⟨2, ![16, 1048576]⟩

abbrev nBuf : Space → Nat
  | .hbm => 17
  | .vmem => 18
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S32768x512, .f32⟩
  | .hbm, ⟨9, _⟩ => ⟨S512x512, .bf16⟩
  | .hbm, ⟨10, _⟩ => ⟨S1x512, .f32⟩
  | .hbm, ⟨11, _⟩ => ⟨S32768x512, .bf16⟩
  | .hbm, ⟨12, _⟩ => ⟨S16x512x2048, .bf16⟩
  | .hbm, ⟨13, _⟩ => ⟨S1x512, .f32⟩
  | .hbm, ⟨14, _⟩ => ⟨S1x512, .f32⟩
  | .hbm, ⟨15, _⟩ => ⟨S16x2048x512, .f32⟩
  | .hbm, ⟨16, _⟩ => ⟨S16x1048576, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S1x256x512, .f32⟩
  | .local _ .vmem, ⟨7, _⟩ => ⟨S1x256x512, .f32⟩
  | .local _ .vmem, ⟨8, _⟩ => ⟨S1x512x2048, .bf16⟩
  | .local _ .vmem, ⟨9, _⟩ => ⟨S1x512x2048, .bf16⟩
  | .local _ .vmem, ⟨10, _⟩ => ⟨S1x2048x512, .f32⟩
  | .local _ .vmem, ⟨11, _⟩ => ⟨S1x2048x512, .f32⟩
  | .local _ .vmem, ⟨12, _⟩ => ⟨S512x512, .f32⟩
  | .local _ .vmem, ⟨13, _⟩ => ⟨S1x512, .f32⟩
  | .local _ .vmem, ⟨14, _⟩ => ⟨S512x512, .f32⟩
  | .local _ .vmem, ⟨15, _⟩ => ⟨S1x512, .f32⟩
  | .local _ .vmem, ⟨16, _⟩ => ⟨S1x256x512, .f32⟩
  | .local _ .vmem, ⟨17, _⟩ => ⟨S1x256x512, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  shapeCasts_S16x2048x512_S32768x512 : S16x2048x512.ShapeCasts S32768x512
  bitsLt_bf16_f32 : FTy.bits .bf16 < FTy.bits .f32
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S32768x512_S16x512x2048 : S32768x512.ShapeCasts S16x512x2048
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  broadcasts_S1x512_S256x512 : S1x512.Broadcasts S256x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S256x2048_S256 : S256x2048.Reduces [1] S256
  shapeCasts_S256_S256x1 : S256.ShapeCasts S256x1
  broadcasts_S256x1_S256x2048 : S256x1.Broadcasts S256x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S256x512_S1x256x512 : S256x512.ShapeCasts S1x256x512
  shapeCasts_S16x2048x512_S16x1048576 : S16x2048x512.ShapeCasts S16x1048576
  dot_S1024x512_S512x512_S1024x512_1_0_0_1_n_n_wf : DotDims.WF S1024x512 S512x512 S1024x512 [1] [0] [0] [1] [] []
  dot_S256x512_S512x512_S256x512_1_0_0_1_n_n_wf : DotDims.WF S256x512 S512x512 S256x512 [1] [0] [0] [1] [] []
  dot_S256x512_S512x2048_S256x2048_1_0_0_1_n_n_wf : DotDims.WF S256x512 S512x2048 S256x2048 [1] [0] [0] [1] [] []
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S32768x512.size a
  hwx0_3 : ∀ i : grid0.Coords, EltTy.bits .bf16 = 32 ∨ (Rect.block (s := S32768x512) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x512.size a ≤ S16x2048x512.size a
  hwx1_0 : ∀ i : grid1.Coords, EltTy.bits .f32 = 32 ∨ (Rect.block (s := S16x2048x512) S1x256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x2048.size a ≤ S16x512x2048.size a
  hwx1_1 : ∀ i : grid1.Coords, EltTy.bits .bf16 = 32 ∨ (Rect.block (s := S16x512x2048) S1x512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x512.size a ≤ S16x2048x512.size a
  hwx1_2 : ∀ i : grid1.Coords, EltTy.bits .f32 = 32 ∨ (Rect.block (s := S16x2048x512) S1x2048x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .f32 = 32 ∨ (Rect.block (s := S512x512) S512x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x512.size a ≤ S16x2048x512.size a
  hwx1_7 : ∀ i : grid1.Coords, EltTy.bits .f32 = 32 ∨ (Rect.block (s := S16x2048x512) S1x256x512.size (cc1_transform_7 i) (hinb1_7 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x2048x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1x256x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S16x2048x512 : Shape := ⟨3, ![16, 2048, 512]⟩
abbrev S512x512 : Shape := ⟨2, ![512, 512]⟩
abbrev S512 : Shape := ⟨1, ![512]⟩
abbrev S1x1x512 : Shape := ⟨3, ![1, 1, 512]⟩
abbrev S16x512x2048 : Shape := ⟨3, ![16, 512, 2048]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1048576 : Shape := ⟨2, ![16, 1048576]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S16x2048x512, .f32⟩
  | .hbm, ⟨9, _⟩ => ⟨S1x1x512, .f32⟩
  | .hbm, ⟨10, _⟩ => ⟨S16x2048x512, .f32⟩
  | .hbm, ⟨11, _⟩ => ⟨S16x2048x512, .f32⟩
  | .hbm, ⟨12, _⟩ => ⟨S16x2048x512, .f32⟩
  | .hbm, ⟨13, _⟩ => ⟨S1x1x512, .f32⟩
  | .hbm, ⟨14, _⟩ => ⟨S16x2048x512, .f32⟩
  | .hbm, ⟨15, _⟩ => ⟨S16x2048x512, .f32⟩
  | .hbm, ⟨16, _⟩ => ⟨S16x512x2048, .f32⟩
  | .hbm, ⟨17, _⟩ => ⟨S16x2048x512, .f32⟩
  | .hbm, ⟨18, _⟩ => ⟨S1x1x512, .f32⟩
  | .hbm, ⟨19, _⟩ => ⟨S16x2048x512, .f32⟩
  | .hbm, ⟨20, _⟩ => ⟨S16x2048x512, .f32⟩
  | .hbm, ⟨21, _⟩ => ⟨S16x2048x2048, .f32⟩
  | .hbm, ⟨22, _⟩ => ⟨S_, .f32⟩
  | .hbm, ⟨23, _⟩ => ⟨S16x2048, .f32⟩
  | .hbm, ⟨24, _⟩ => ⟨S_, .f32⟩
  | .hbm, ⟨25, _⟩ => ⟨S16x2048, .f32⟩
  | .hbm, ⟨26, _⟩ => ⟨S16x2048, .f32⟩
  | .hbm, ⟨27, _⟩ => ⟨S16x2048x1, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S_, .f32⟩
  | .hbm, ⟨32, _⟩ => ⟨S16x2048, .f32⟩
  | .hbm, ⟨33, _⟩ => ⟨S16x2048x1, .f32⟩
  | .hbm, ⟨34, _⟩ => ⟨S16x2048x2048, .f32⟩
  | .hbm, ⟨35, _⟩ => ⟨S16x2048x2048, .f32⟩
  | .hbm, ⟨36, _⟩ => ⟨S16x2048x512, .f32⟩
  | .hbm, ⟨37, _⟩ => ⟨S16x2048x512, .f32⟩
  | .hbm, ⟨38, _⟩ => ⟨S16x1048576, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x2048x512_0_1_2 : S1x1x512.BroadcastsInDim S16x2048x512 (![0, 1, 2] : Fin 3 → Fin S16x2048x512.rank)
  shapeCasts_S16x2048x512_S16x512x2048 : S16x2048x512.ShapeCasts S16x512x2048
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  shapeCasts_S16x2048x512_S16x1048576 : S16x2048x512.ShapeCasts S16x1048576
  dot_S16x2048x512_S512x512_S16x2048x512_2_0_01_1_n_n_wf : DotDims.WF S16x2048x512 S512x512 S16x2048x512 [2] [0] [0, 1] [1] [] []
  dot_S16x2048x512_S16x512x2048_S16x2048x2048_2_1_1_2_0_0_wf : DotDims.WF S16x2048x512 S16x512x2048 S16x2048x2048 [2] [1] [1] [2] [0] [0]
  dot_S16x2048x2048_S16x2048x512_S16x2048x512_2_1_1_2_0_0_wf : DotDims.WF S16x2048x2048 S16x2048x512 S16x2048x512 [2] [1] [1] [2] [0] [0]

variable [Facts₀]

def dot_S16x2048x512_S512x512_S16x2048x512_2_0_01_1_n_n : DotDims S16x2048x512 S512x512 S16x2048x512 where
  lhsContracting := [2]
  rhsContracting := [0]
  lhsNonContracting := [0, 1]
  rhsNonContracting := [1]
  lhsBatch := []
  rhsBatch := []
  wf := dot_S16x2048x512_S512x512_S16x2048x512_2_0_01_1_n_n_wf
def dot_S16x2048x512_S16x512x2048_S16x2048x2048_2_1_1_2_0_0 : DotDims S16x2048x512 S16x512x2048 S16x2048x2048 where
  lhsContracting := [2]
  rhsContracting := [1]
  lhsNonContracting := [1]
  rhsNonContracting := [2]
  lhsBatch := [0]
  rhsBatch := [0]
  wf := dot_S16x2048x512_S16x512x2048_S16x2048x2048_2_1_1_2_0_0_wf
def dot_S16x2048x2048_S16x2048x512_S16x2048x512_2_1_1_2_0_0 : DotDims S16x2048x2048 S16x2048x512 S16x2048x512 where
  lhsContracting := [2]
  rhsContracting := [1]
  lhsNonContracting := [1]
  rhsNonContracting := [2]
  lhsBatch := [0]
  rhsBatch := [0]
  wf := dot_S16x2048x2048_S16x2048x512_S16x2048x512_2_1_1_2_0_0_wf

class Facts : Prop extends Facts₀ where

variable [Facts]
-- ==== Proof.LibSoftmaxRow.lean ====
/-
  A row of scores turned into softmax weights, over the extended reals, and what real rows give.

  For a row `s : Fin n → EReal`: `rowMax s` is the fold of `max` from -∞, `rowExp s t = exp (s t - rowMax s)`, and
  `rowWt s t = rowExp s t / ∑ u, rowExp s u` — the shape both a kernel's lane reductions and a host softmax take when read
  at an index. `rowWt_real`: for a nonempty row of REAL scores the weights are real numbers that sum to one (the maximum
  of finitely many reals is real, the exponentials are positive reals, the divisor is a positive real). `mix`: for real
  weights that sum to one, mixing affinely projected rows is projecting the mixed rows, `∑ t, w t · ((∑ d, κ t d · ω d) + β)
  = (∑ d, (∑ t, w t · κ t d) · ω d) + β` — the identity that lets a value projection and its bias be applied after the
  attention matmul instead of before. `coe_sum`: the coercion ℝ → EReal commutes with finite sums. `negInf`: the f32 word
  of -∞ denotes ⊥.
-/
import Mathlib
import Idealize.ShloMosaic.PureOps.Ideal
import Idealize.ShloMosaic.PureOps.Ideal.Laws

noncomputable section

namespace SoftmaxRow

open Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of -∞ denotes the bottom of the extended reals. -/
theorem negInf : Ideal.ofBits .f32 0xFF800000#32 = (⊥ : EReal) := by simp [Ideal.ofBits, Ideal.ieee]

/-! ## A row of scores turned into weights -/

/-- The row's maximum, folded from -∞. -/
def rowMax {n : ℕ} (s : Fin n → EReal) : EReal :=
  (Finset.univ : Finset (Fin n)).fold max (Ideal.ofBits .f32 0xFF800000#32) s

/-- The exponential of an entry's distance below the row's maximum. -/
def rowExp {n : ℕ} (s : Fin n → EReal) (t : Fin n) : EReal := Ideal.exp (s t - rowMax s)

/-- The entry's weight: its exponential over the sum of the row's exponentials. -/
def rowWt {n : ℕ} (s : Fin n → EReal) (t : Fin n) : EReal := Ideal.div (rowExp s t) (∑ u : Fin n, rowExp s u)

/-- The weights of a nonempty real row are real numbers that sum to one: the maximum of finitely many reals is real,
    each exponential is a positive real, so the divisor is a positive real. -/
theorem rowWt_real {n : ℕ} (hn : 0 < n) (σ : Fin n → ℝ) :
    ∃ w : Fin n → ℝ, (∀ t, rowWt (fun t => (σ t : EReal)) t = (w t : EReal)) ∧ ∑ t, w t = 1 := by
  have hlt : rowMax (fun t => (σ t : EReal)) < ⊤ := by
    unfold rowMax
    rw [Finset.fold_max_lt]
    exact ⟨by rw [negInf]; exact bot_lt_top, fun x _ => EReal.coe_lt_top _⟩
  have hgt : ⊥ < rowMax (fun t => (σ t : EReal)) := by
    unfold rowMax
    rw [Finset.lt_fold_max]
    exact Or.inr ⟨⟨0, hn⟩, Finset.mem_univ _, EReal.bot_lt_coe _⟩
  obtain ⟨μ, hμ⟩ : ∃ μ : ℝ, rowMax (fun t => (σ t : EReal)) = (μ : EReal) :=
    ⟨_, (EReal.coe_toReal hlt.ne hgt.ne').symm⟩
  have hex : ∀ t, rowExp (fun t => (σ t : EReal)) t = ((Real.exp (σ t - μ) : ℝ) : EReal) := fun t => by
    unfold rowExp
    rw [hμ, ← EReal.coe_sub]
    rfl
  have hL : 0 < ∑ u : Fin n, Real.exp (σ u - μ) :=
    Finset.sum_pos (fun u _ => Real.exp_pos _) ⟨⟨0, hn⟩, Finset.mem_univ _⟩
  refine ⟨fun t => Real.exp (σ t - μ) / ∑ u : Fin n, Real.exp (σ u - μ), fun t => ?_, ?_⟩
  · unfold rowWt
    simp only [hex]
    rw [← coe_sum, Ideal.div_coe hL.ne', ← EReal.coe_mul]
    congr 1
    ring
  · rw [← Finset.sum_div]
    exact div_self hL.ne'

/-- Mixing projected rows is projecting the mixed rows, for real weights that sum to one: the bias is weighted by
    the weights' sum, which is one, and the two finite sums are exchanged. -/
theorem mix {T D : ℕ} (w : Fin T → ℝ) (hw : ∑ t, w t = 1) (κ : Fin T → Fin D → ℝ) (ω : Fin D → ℝ) (β : ℝ) :
    (∑ t : Fin T, (w t : EReal) * ((∑ d : Fin D, (κ t d : EReal) * (ω d : EReal)) + (β : EReal)))
      = (∑ d : Fin D, (∑ t : Fin T, (w t : EReal) * (κ t d : EReal)) * (ω d : EReal)) + (β : EReal) := by
  have hreal : ∑ t : Fin T, w t * (∑ d : Fin D, κ t d * ω d + β) = ∑ d : Fin D, (∑ t : Fin T, w t * κ t d) * ω d + β := by
    calc ∑ t : Fin T, w t * (∑ d : Fin D, κ t d * ω d + β)
        = ∑ t : Fin T, ∑ d : Fin D, w t * κ t d * ω d + (∑ t : Fin T, w t) * β := by
          rw [Finset.sum_mul, ← Finset.sum_add_distrib]
          refine Finset.sum_congr rfl fun t _ => ?_
          rw [mul_add, Finset.mul_sum]
          simp only [mul_assoc]
      _ = ∑ d : Fin D, (∑ t : Fin T, w t * κ t d) * ω d + β := by
          rw [hw, one_mul, Finset.sum_comm]
          simp only [Finset.sum_mul]
  have hl : (∑ t : Fin T, (w t : EReal) * ((∑ d : Fin D, (κ t d : EReal) * (ω d : EReal)) + (β : EReal)))
      = ((∑ t : Fin T, w t * (∑ d : Fin D, κ t d * ω d + β) : ℝ) : EReal) := by
    rw [coe_sum]
    refine Finset.sum_congr rfl fun t _ => ?_
    rw [EReal.coe_mul, EReal.coe_add, coe_sum]
    simp only [EReal.coe_mul]
  have hr : (∑ d : Fin D, (∑ t : Fin T, (w t : EReal) * (κ t d : EReal)) * (ω d : EReal)) + (β : EReal)
      = ((∑ d : Fin D, (∑ t : Fin T, w t * κ t d) * ω d + β : ℝ) : EReal) := by
    rw [EReal.coe_add, coe_sum]
    refine congrArg (· + (β : EReal)) (Finset.sum_congr rfl fun d _ => ?_)
    rw [EReal.coe_mul, coe_sum]
    simp only [EReal.coe_mul]
  rw [hl, hr, hreal]

end SoftmaxRow

end
-- ==== Proof.Spec.lean ====
/-
  The mathematics of the claim, with no program in sight.

  Inputs: queries `q` and keys `k` of shape [16, 2048, 512], three weight matrices [512, 512] and three biases [512],
  all read as extended reals. A linear layer is `lin x W β b t c = (∑ d, x[b,t,d] · W[d,c]) + β[c]`. The projected keys
  are re-read, without moving an element, as [16, 512, 2048] (`kin`); the scores are `∑ c, lin q … [b,r,c] · kin[b,c,t]`;
  a row of scores is turned into weights by subtracting the row's maximum, exponentiating and dividing by the row's sum.

  Two arrangements of the last step are compared. One (`outR`) mixes the projected values: `∑ t, a[t] · lin k Wv bv [b,t,c]`.
  The other (`outK`) mixes the raw keys first and projects afterwards: `(∑ d, (∑ t, a[t] · k[b,t,d]) · Wv[d,c]) + bv[c]`.
  They agree when every input is a real number: the weights of a real row are real and sum to one, so the bias comes
  out of the mixture unchanged, and the double sum is exchanged by distributivity — which is where finiteness is used
  (on the extended reals distributivity fails at the infinities).
-/
import Mathlib
import proofs.«133986_j1511828489046_2_alg».proof.Proof.LibSoftmaxRow
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

export SoftmaxRow (coe_sum negInf rowMax rowExp rowWt rowWt_real mix)

/-! ## The arrays -/

/-- Queries, keys: [16, 2048, 512]. -/
abbrev A3 := (⟨3, ![16, 2048, 512]⟩ : Shape).Idx → EReal
/-- A weight matrix: [512, 512]. -/
abbrev M2 := (⟨2, ![512, 512]⟩ : Shape).Idx → EReal
/-- A bias: [512]. -/
abbrev B1 := (⟨1, ![512]⟩ : Shape).Idx → EReal

/-- A linear layer at one entry. -/
def lin (x : A3) (W : M2) (β : B1) (b : Fin 16) (t : Fin 2048) (c : Fin 512) : EReal :=
  (∑ d : Fin 512, x (ix3 b t d) * W (ix2 d c)) + β (ix1 c)

/-- The projected keys [16, 2048, 512] re-read as [16, 512, 2048] without moving an element: entry (c, t) of batch `b`
    is the flat position `c · 2048 + t` of that batch's 2048 × 512 block. -/
def kin (k : A3) (Wk : M2) (bk : B1) (b : Fin 16) (c : Fin 512) (t : Fin 2048) : EReal :=
  lin k Wk bk b ⟨(c.val * 2048 + t.val) / 512, by have := c.isLt; have := t.isLt; omega⟩
    ⟨(c.val * 2048 + t.val) % 512, by omega⟩

/-- The scores of query row `r` of batch `b`. -/
def score (q k : A3) (Wq : M2) (bq : B1) (Wk : M2) (bk : B1) (b : Fin 16) (r : Fin 2048) (t : Fin 2048) : EReal :=
  ∑ c : Fin 512, lin q Wq bq b r c * kin k Wk bk b c t

/-- The attention weights. -/
def attn (q k : A3) (Wq : M2) (bq : B1) (Wk : M2) (bk : B1) (b : Fin 16) (r : Fin 2048) (t : Fin 2048) : EReal :=
  rowWt (score q k Wq bq Wk bk b r) t

/-- Mix the raw keys, then project (the fused arrangement). -/
def outK (q k : A3) (Wq : M2) (bq : B1) (Wk : M2) (bk : B1) (Wv : M2) (bv : B1) (b : Fin 16) (r : Fin 2048) (c : Fin 512) : EReal :=
  lin q Wq bq b r c
    + ((∑ d : Fin 512, (∑ t : Fin 2048, attn q k Wq bq Wk bk b r t * k (ix3 b t d)) * Wv (ix2 d c)) + bv (ix1 c))

/-- Project the keys into values, then mix (the textbook arrangement). -/
def outR (q k : A3) (Wq : M2) (bq : B1) (Wk : M2) (bk : B1) (Wv : M2) (bv : B1) (b : Fin 16) (r : Fin 2048) (c : Fin 512) : EReal :=
  lin q Wq bq b r c + ∑ t : Fin 2048, attn q k Wq bq Wk bk b r t * lin k Wv bv b t c

/-- The fused arrangement over accessors: `Q` the query row, `Kin` the re-read projected keys and `Kraw` the raw keys of
    the row's batch, the weights and biases by coordinates. A block of the output and the whole output are both this
    function, at different accessors. -/
def fused (Q : Fin 512 → EReal) (Wq : Fin 512 → Fin 512 → EReal) (Bq : Fin 512 → EReal) (Kin : Fin 512 → Fin 2048 → EReal)
    (Kraw : Fin 2048 → Fin 512 → EReal) (Wv : Fin 512 → Fin 512 → EReal) (Bv : Fin 512 → EReal) (c : Fin 512) : EReal :=
  ((∑ d : Fin 512, Q d * Wq d c) + Bq c)
    + ((∑ d : Fin 512, (∑ t : Fin 2048,
        rowWt (fun u : Fin 2048 => ∑ e : Fin 512, ((∑ d : Fin 512, Q d * Wq d e) + Bq e) * Kin e u) t * Kraw t d) * Wv d c) + Bv c)

/-- The fused arrangement of the whole arrays is `fused` at the arrays' rows. -/
theorem outK_eq_fused (q k : A3) (Wq : M2) (bq : B1) (Wk : M2) (bk : B1) (Wv : M2) (bv : B1) (b : Fin 16) (r : Fin 2048) (c : Fin 512) :
    outK q k Wq bq Wk bk Wv bv b r c
      = fused (fun d => q (ix3 b r d)) (fun d e => Wq (ix2 d e)) (fun e => bq (ix1 e)) (fun e u => kin k Wk bk b e u)
          (fun t d => k (ix3 b t d)) (fun d e => Wv (ix2 d e)) (fun e => bv (ix1 e)) c := rfl

/-- The fused arrangement depends on its accessors only through their values. -/
theorem fused_congr {Q Q' : Fin 512 → EReal} {Wq Wq' : Fin 512 → Fin 512 → EReal} {Bq Bq' : Fin 512 → EReal}
    {Kin Kin' : Fin 512 → Fin 2048 → EReal} {Kraw Kraw' : Fin 2048 → Fin 512 → EReal} {Wv Wv' : Fin 512 → Fin 512 → EReal}
    {Bv Bv' : Fin 512 → EReal} (h1 : ∀ d, Q d = Q' d) (h2 : ∀ d e, Wq d e = Wq' d e) (h3 : ∀ e, Bq e = Bq' e)
    (h4 : ∀ e u, Kin e u = Kin' e u) (h5 : ∀ t d, Kraw t d = Kraw' t d) (h6 : ∀ d e, Wv d e = Wv' d e) (h7 : ∀ e, Bv e = Bv' e)
    (c : Fin 512) : fused Q Wq Bq Kin Kraw Wv Bv c = fused Q' Wq' Bq' Kin' Kraw' Wv' Bv' c := by
  obtain rfl : Q = Q' := funext h1
  obtain rfl : Wq = Wq' := funext fun d => funext (h2 d)
  obtain rfl : Bq = Bq' := funext h3
  obtain rfl : Kin = Kin' := funext fun e => funext (h4 e)
  obtain rfl : Kraw = Kraw' := funext fun t => funext (h5 t)
  obtain rfl : Wv = Wv' := funext fun d => funext (h6 d)
  obtain rfl : Bv = Bv' := funext h7
  rfl

/-- The whole result [16, 2048, 512] in the fused arrangement. -/
def wholeK (q k : A3) (Wq : M2) (bq : B1) (Wk : M2) (bk : B1) (Wv : M2) (bv : B1) : A3 :=
  fun i => outK q k Wq bq Wk bk Wv bv (⟨(i 0).val, (i 0).isLt⟩ : Fin 16) (⟨(i 1).val, (i 1).isLt⟩ : Fin 2048) (⟨(i 2).val, (i 2).isLt⟩ : Fin 512)

/-- The whole result [16, 2048, 512] in the textbook arrangement. -/
def wholeR (q k : A3) (Wq : M2) (bq : B1) (Wk : M2) (bk : B1) (Wv : M2) (bv : B1) : A3 :=
  fun i => outR q k Wq bq Wk bk Wv bv (⟨(i 0).val, (i 0).isLt⟩ : Fin 16) (⟨(i 1).val, (i 1).isLt⟩ : Fin 2048) (⟨(i 2).val, (i 2).isLt⟩ : Fin 512)

/-- A linear layer of real data is real. -/
theorem lin_real (x : (⟨3, ![16, 2048, 512]⟩ : Shape).Idx → ℝ) (W : (⟨2, ![512, 512]⟩ : Shape).Idx → ℝ)
    (β : (⟨1, ![512]⟩ : Shape).Idx → ℝ) (b : Fin 16) (t : Fin 2048) (c : Fin 512) :
    lin (fun i => (x i : EReal)) (fun i => (W i : EReal)) (fun i => (β i : EReal)) b t c
      = (((∑ d : Fin 512, x (ix3 b t d) * W (ix2 d c)) + β (ix1 c) : ℝ) : EReal) := by
  unfold lin
  rw [EReal.coe_add, coe_sum]
  simp only [EReal.coe_mul]

/-- The two arrangements agree when every input is real. -/
theorem outK_eq_outR (q k : A3) (Wq : M2) (bq : B1) (Wk : M2) (bk : B1) (Wv : M2) (bv : B1)
    (hq : ∀ i, ∃ x : ℝ, q i = (x : EReal)) (hk : ∀ i, ∃ x : ℝ, k i = (x : EReal))
    (hWq : ∀ i, ∃ x : ℝ, Wq i = (x : EReal)) (hbq : ∀ i, ∃ x : ℝ, bq i = (x : EReal))
    (hWk : ∀ i, ∃ x : ℝ, Wk i = (x : EReal)) (hbk : ∀ i, ∃ x : ℝ, bk i = (x : EReal))
    (hWv : ∀ i, ∃ x : ℝ, Wv i = (x : EReal)) (hbv : ∀ i, ∃ x : ℝ, bv i = (x : EReal))
    (b : Fin 16) (r : Fin 2048) (c : Fin 512) :
    outK q k Wq bq Wk bk Wv bv b r c = outR q k Wq bq Wk bk Wv bv b r c := by
  choose q' hq' using hq
  choose k' hk' using hk
  choose Wq' hWq' using hWq
  choose bq' hbq' using hbq
  choose Wk' hWk' using hWk
  choose bk' hbk' using hbk
  choose Wv' hWv' using hWv
  choose bv' hbv' using hbv
  obtain rfl : q = fun i => (q' i : EReal) := funext hq'
  obtain rfl : k = fun i => (k' i : EReal) := funext hk'
  obtain rfl : Wq = fun i => (Wq' i : EReal) := funext hWq'
  obtain rfl : bq = fun i => (bq' i : EReal) := funext hbq'
  obtain rfl : Wk = fun i => (Wk' i : EReal) := funext hWk'
  obtain rfl : bk = fun i => (bk' i : EReal) := funext hbk'
  obtain rfl : Wv = fun i => (Wv' i : EReal) := funext hWv'
  obtain rfl : bv = fun i => (bv' i : EReal) := funext hbv'
  -- the scores of this row are real
  have hscore : score (fun i => (q' i : EReal)) (fun i => (k' i : EReal)) (fun i => (Wq' i : EReal)) (fun i => (bq' i : EReal))
      (fun i => (Wk' i : EReal)) (fun i => (bk' i : EReal)) b r
      = fun t => (((∑ c : Fin 512, ((∑ d : Fin 512, q' (ix3 b r d) * Wq' (ix2 d c)) + bq' (ix1 c))
          * ((∑ d : Fin 512, k' (ix3 b ⟨(c.val * 2048 + t.val) / 512, by have := c.isLt; have := t.isLt; omega⟩ d)
                * Wk' (ix2 d ⟨(c.val * 2048 + t.val) % 512, by omega⟩)) + bk' (ix1 ⟨(c.val * 2048 + t.val) % 512, by omega⟩)) : ℝ) : ℝ) : EReal) := by
    funext t
    unfold score kin
    rw [coe_sum]
    refine Finset.sum_congr rfl fun c _ => ?_
    rw [lin_real, lin_real, EReal.coe_mul]
  obtain ⟨w, hw, hw1⟩ := rowWt_real (by decide : 0 < 2048) (fun t => ∑ c : Fin 512, ((∑ d : Fin 512, q' (ix3 b r d) * Wq' (ix2 d c)) + bq' (ix1 c))
          * ((∑ d : Fin 512, k' (ix3 b ⟨(c.val * 2048 + t.val) / 512, by have := c.isLt; have := t.isLt; omega⟩ d)
                * Wk' (ix2 d ⟨(c.val * 2048 + t.val) % 512, by omega⟩)) + bk' (ix1 ⟨(c.val * 2048 + t.val) % 512, by omega⟩)))
  have hattn : ∀ t, attn (fun i => (q' i : EReal)) (fun i => (k' i : EReal)) (fun i => (Wq' i : EReal)) (fun i => (bq' i : EReal))
      (fun i => (Wk' i : EReal)) (fun i => (bk' i : EReal)) b r t = (w t : EReal) := fun t => by
    unfold attn
    rw [hscore]
    exact hw t
  unfold outK outR
  refine congrArg (lin _ _ _ b r c + ·) ?_
  simp only [hattn]
  unfold lin
  exact (mix w hw1 (fun t d => k' (ix3 b t d)) (fun d => Wv' (ix2 d c)) (bv' (ix1 c))).symm

/-- The two whole results are one array when every input is real. -/
theorem wholeK_eq_wholeR (q k : A3) (Wq : M2) (bq : B1) (Wk : M2) (bk : B1) (Wv : M2) (bv : B1)
    (hq : ∀ i, ∃ x : ℝ, q i = (x : EReal)) (hk : ∀ i, ∃ x : ℝ, k i = (x : EReal))
    (hWq : ∀ i, ∃ x : ℝ, Wq i = (x : EReal)) (hbq : ∀ i, ∃ x : ℝ, bq i = (x : EReal))
    (hWk : ∀ i, ∃ x : ℝ, Wk i = (x : EReal)) (hbk : ∀ i, ∃ x : ℝ, bk i = (x : EReal))
    (hWv : ∀ i, ∃ x : ℝ, Wv i = (x : EReal)) (hbv : ∀ i, ∃ x : ℝ, bv i = (x : EReal)) :
    wholeK q k Wq bq Wk bk Wv bv = wholeR q k Wq bq Wk bk Wv bv :=
  funext fun _ => outK_eq_outR q k Wq bq Wk bk Wv bv hq hk hWq hbq hWk hbk hWv hbv _ _ _

end Cert.Attn

end
-- ==== Proof.KernelRun.lean ====
/-
  The kernel program's run with its result named: every weakly fair execution of @main terminates, nothing faulting, the
  result buffer holding what the last host stretch leaves there (`W5 m ρ c` at the result's reference: the boundary
  contents folded through the three host stretches and the two regions), and the arguments unchanged. The segments, the
  regions' records and the launch are the frame's; only the reading of the final state takes one more buffer.
-/
import proofs.«133986_j1511828489046_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer at the last boundary's contents. -/
theorem run_named : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Whole

end
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.Body.lean ====
/-
  What the two kernel bodies compute, entry by entry, at the ideal instance, as functions of the blocks they load.

  The key-projection body stores, at (p, c) of its 1024 × 512 block, `(∑ d, x[p,d] · W[d,c]) + β[0,c]`.
  The fused attention body stores, at (0, p, c) of its 1 × 256 × 512 block,
  `qin[p,c] + ((∑ d, (∑ t, a[p,t] · kraw[0,t,d]) · Wv[d,c]) + bv[0,c])` where `qin[p,c] = (∑ d, q[0,p,d] · Wq[d,c]) + bq[0,c]`,
  the scores are `s[p,t] = ∑ c, qin[p,c] · kin[0,c,t]`, and `a[p,·]` are the weights of the row `s[p,·]`
  (maximum subtracted, exponentiated, divided by the row's sum). Changes of float format are the identity here, and a
  matrix product into a zero accumulator is the plain sum over the contracted coordinate.
-/
import proofs.«133986_j1511828489046_2_alg».proof.Proof.Gen.KernelIdeal.Skeleton
import proofs.«133986_j1511828489046_2_alg».proof.Proof.LibColumn
import proofs.«133986_j1511828489046_2_alg».proof.Proof.LibPlainProduct
import proofs.«133986_j1511828489046_2_alg».proof.Proof.Spec
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen

theorem dotA_plain : dot_S1024x512_S512x512_S1024x512_1_0_0_1_n_n = DotDims.plain 1024 512 512 := rfl
theorem dotB_plain : dot_S256x512_S512x512_S256x512_1_0_0_1_n_n = DotDims.plain 256 512 512 := rfl
theorem dotC_plain : dot_S256x512_S512x2048_S256x2048_1_0_0_1_n_n = DotDims.plain 256 512 2048 := rfl
theorem dotD_plain : dot_S256x2048_S2048x512_S256x512_1_0_0_1_n_n = DotDims.plain 256 2048 512 := rfl

/-- A product into the zero accumulator is the plain sum. -/
theorem matmul_zero_at {m k n : ℕ} (d : DotDims ⟨2, ![m, k]⟩ ⟨2, ![k, n]⟩ ⟨2, ![m, n]⟩) (hd : d = DotDims.plain m k n)
    (A : FVec Ideal ⟨2, ![m, k]⟩ .bf16) (B : FVec Ideal ⟨2, ![k, n]⟩ .bf16) (a : Fin m) (b : Fin n) :
    matmul d none A B (constant (F := Ideal) ⟨2, ![m, n]⟩ .f32 0x00000000#32) (ix2 a b) = ∑ c : Fin k, A (ix2 a c) * B (ix2 c b) := by
  rw [PlainProduct.matmul_at d hd, constant_apply, Ideal.ofBits_zero_f32, zero_add]

/-! ## The key projection -/

/-- Entry (p, c) of what the key-projection body stores. -/
theorem kproj_at (x0 : FVec Ideal S1024x512 .f32) (x1 : FVec Ideal S512x512 .bf16) (x2 : FVec Ideal S1x512 .f32)
    (p : Fin 1024) (c : Fin 512) :
    k0_pay1 (F := Ideal) x0 x1 x2 (ix2 p c) = (∑ d : Fin 512, x0 (ix2 p d) * x1 (ix2 d c)) + x2 (ix2 (0 : Fin 1) c) := by
  show matmul dot_S1024x512_S512x512_S1024x512_1_0_0_1_n_n none
        (truncf .bf16 (shapeCast S1024x512 x0 shapeCasts_S1024x512_S1024x512) bitsLt_bf16_f32)
        (shapeCast S512x512 x1 shapeCasts_S512x512_S512x512) (constant (F := Ideal) S1024x512 .f32 0x00000000#32) (ix2 p c)
      + broadcastTo S1024x512 (shapeCast S1x512 x2 shapeCasts_S1x512_S1x512) broadcasts_S1x512_S1024x512 (ix2 p c) = _
  rw [matmul_zero_at _ dotA_plain, shapeCast_self, shapeCast_self, shapeCast_self, broadcastTo_1b_ab_apply]
  rfl

/-! ## The fused attention -/

/-- The projected queries of the block. -/
theorem qin_at (v0 : FVec Ideal S1x256x512 .f32) (v2 : FVec Ideal S512x512 .f32) (v6 : FVec Ideal S1x512 .f32)
    (p : Fin 256) (c : Fin 512) :
    k1_pay2 (F := Ideal) v0 v2 v6 (ix2 p c) = (∑ d : Fin 512, v0 (ix3 (0 : Fin 1) p d) * v2 (ix2 d c)) + v6 (ix2 (0 : Fin 1) c) := by
  show matmul dot_S256x512_S512x512_S256x512_1_0_0_1_n_n none
        (truncf .bf16 (shapeCast S256x512 v0 shapeCasts_S1x256x512_S256x512) bitsLt_bf16_f32)
        (truncf .bf16 v2 bitsLt_bf16_f32) (constant (F := Ideal) S256x512 .f32 0x00000000#32) (ix2 p c)
      + broadcastTo S256x512 (shapeCast S1x512 v6 shapeCasts_S1x512_S1x512) broadcasts_S1x512_S256x512 (ix2 p c) = _
  rw [matmul_zero_at _ dotB_plain, shapeCast_self, broadcastTo_1b_ab_apply]
  refine congrArg (· + v6 (ix2 (0 : Fin 1) c)) (Finset.sum_congr rfl fun d _ => ?_)
  show shapeCast S256x512 v0 shapeCasts_S1x256x512_S256x512 (ix2 p d) * v2 (ix2 d c) = _
  rw [shapeCast_1ab_ab_apply]

/-- The scores of the block: the projected queries against the re-read projected keys. -/
def scoresV (qin : FVec Ideal S256x512 .f32) (v10 : FVec Ideal S1x512x2048 .bf16) : FVec Ideal S256x2048 .f32 :=
  matmul dot_S256x512_S512x2048_S256x2048_1_0_0_1_n_n none (truncf .bf16 qin bitsLt_bf16_f32)
    (shapeCast S512x2048 v10 shapeCasts_S1x512x2048_S512x2048) (constant S256x2048 .f32 0x00000000#32)

theorem scoresV_at (qin : FVec Ideal S256x512 .f32) (v10 : FVec Ideal S1x512x2048 .bf16) (p : Fin 256) (t : Fin 2048) :
    scoresV qin v10 (ix2 p t) = ∑ c : Fin 512, qin (ix2 p c) * v10 (ix3 (0 : Fin 1) c t) := by
  unfold scoresV
  rw [matmul_zero_at _ dotC_plain]
  refine Finset.sum_congr rfl fun c _ => ?_
  show qin (ix2 p c) * shapeCast S512x2048 v10 shapeCasts_S1x512x2048_S512x2048 (ix2 c t) = _
  rw [shapeCast_1ab_ab_apply]

/-- The exponentials of a block of scores below their rows' maxima. -/
def expsV (s : FVec Ideal S256x2048 .f32) : FVec Ideal S256x2048 .f32 :=
  exp (subf s (broadcastTo S256x2048 (shapeCast S256x1
    (multiReduction .maximumf [1] S256 s 0xFF800000#32 reduces_S256x2048_S256 (.inl rfl) rfl) shapeCasts_S256_S256x1)
    broadcasts_S256x1_S256x2048))

/-- The weights of a block of scores, row by row. -/
def wtsV (s : FVec Ideal S256x2048 .f32) : FVec Ideal S256x2048 .f32 :=
  divf (expsV s) (broadcastTo S256x2048 (shapeCast S256x1
    (multiReduction .add [1] S256 (expsV s) 0x00000000#32 reduces_S256x2048_S256 (.inl rfl) rfl) shapeCasts_S256_S256x1)
    broadcasts_S256x1_S256x2048)

theorem expsV_at (s : FVec Ideal S256x2048 .f32) (p : Fin 256) (t : Fin 2048) :
    expsV s (ix2 p t) = Cert.Attn.rowExp (fun u : Fin 2048 => s (ix2 p u)) t := by
  have hmax : broadcastTo S256x2048 (shapeCast S256x1
      (multiReduction .maximumf [1] S256 s 0xFF800000#32 reduces_S256x2048_S256 (.inl rfl) rfl) shapeCasts_S256_S256x1)
      broadcasts_S256x1_S256x2048 (ix2 p t) = Cert.Attn.rowMax (fun u : Fin 2048 => s (ix2 p u)) :=
    (ColumnIdx.broadcastTo_a1_ab_apply _ _ p t).trans
      ((ColumnIdx.shapeCast_a_a1_apply _ _ p (0 : Fin 1)).trans (ColumnIdx.rowMax_apply s _ _ _ p))
  show Ideal.exp (s (ix2 p t) - broadcastTo S256x2048 (shapeCast S256x1
      (multiReduction .maximumf [1] S256 s 0xFF800000#32 reduces_S256x2048_S256 (.inl rfl) rfl) shapeCasts_S256_S256x1)
      broadcasts_S256x1_S256x2048 (ix2 p t)) = _
  rw [hmax]
  rfl

theorem wtsV_at (s : FVec Ideal S256x2048 .f32) (p : Fin 256) (t : Fin 2048) :
    wtsV s (ix2 p t) = Cert.Attn.rowWt (fun u : Fin 2048 => s (ix2 p u)) t := by
  have hsum : broadcastTo S256x2048 (shapeCast S256x1
      (multiReduction .add [1] S256 (expsV s) 0x00000000#32 reduces_S256x2048_S256 (.inl rfl) rfl) shapeCasts_S256_S256x1)
      broadcasts_S256x1_S256x2048 (ix2 p t) = ∑ u : Fin 2048, Cert.Attn.rowExp (fun u : Fin 2048 => s (ix2 p u)) u :=
    (ColumnIdx.broadcastTo_a1_ab_apply _ _ p t).trans
      ((ColumnIdx.shapeCast_a_a1_apply _ _ p (0 : Fin 1)).trans
        ((ColumnIdx.rowSum_apply (expsV s) _ _ _ p).trans (Finset.sum_congr rfl fun u _ => expsV_at s p u)))
  show Ideal.div (expsV s (ix2 p t)) (broadcastTo S256x2048 (shapeCast S256x1
      (multiReduction .add [1] S256 (expsV s) 0x00000000#32 reduces_S256x2048_S256 (.inl rfl) rfl) shapeCasts_S256_S256x1)
      broadcasts_S256x1_S256x2048 (ix2 p t)) = _
  rw [hsum, expsV_at]
  rfl

/-- The mixed raw keys, projected: the attention branch before its bias. -/
theorem attnBranch_eq (v0 : FVec Ideal S1x256x512 .f32) (v2 : FVec Ideal S512x512 .f32) (v6 : FVec Ideal S1x512 .f32)
    (v10 : FVec Ideal S1x512x2048 .bf16) (v23 : FVec Ideal S1x2048x512 .f32) (v28 : FVec Ideal S512x512 .f32) :
    k1_pay3 (F := Ideal) v0 v2 v6 v10 v23 v28
      = matmul dot_S256x512_S512x512_S256x512_1_0_0_1_n_n none
          (truncf .bf16 (matmul dot_S256x2048_S2048x512_S256x512_1_0_0_1_n_n none
            (truncf .bf16 (wtsV (scoresV (k1_pay2 (F := Ideal) v0 v2 v6) v10)) bitsLt_bf16_f32)
            (truncf .bf16 (shapeCast S2048x512 v23 shapeCasts_S1x2048x512_S2048x512) bitsLt_bf16_f32)
            (constant S256x512 .f32 0x00000000#32)) bitsLt_bf16_f32)
          (truncf .bf16 v28 bitsLt_bf16_f32) (constant S256x512 .f32 0x00000000#32) := rfl

theorem attnBranch_at (v0 : FVec Ideal S1x256x512 .f32) (v2 : FVec Ideal S512x512 .f32) (v6 : FVec Ideal S1x512 .f32)
    (v10 : FVec Ideal S1x512x2048 .bf16) (v23 : FVec Ideal S1x2048x512 .f32) (v28 : FVec Ideal S512x512 .f32)
    (p : Fin 256) (c : Fin 512) :
    k1_pay3 (F := Ideal) v0 v2 v6 v10 v23 v28 (ix2 p c)
      = ∑ d : Fin 512, (∑ t : Fin 2048,
          Cert.Attn.rowWt (fun u : Fin 2048 => ∑ e : Fin 512, k1_pay2 (F := Ideal) v0 v2 v6 (ix2 p e) * v10 (ix3 (0 : Fin 1) e u)) t
            * v23 (ix3 (0 : Fin 1) t d)) * v28 (ix2 d c) := by
  rw [attnBranch_eq, matmul_zero_at _ dotB_plain]
  refine Finset.sum_congr rfl fun d _ => ?_
  refine congrArg (· * v28 (ix2 d c)) ?_
  show matmul dot_S256x2048_S2048x512_S256x512_1_0_0_1_n_n none
      (truncf .bf16 (wtsV (scoresV (k1_pay2 (F := Ideal) v0 v2 v6) v10)) bitsLt_bf16_f32)
      (truncf .bf16 (shapeCast S2048x512 v23 shapeCasts_S1x2048x512_S2048x512) bitsLt_bf16_f32)
      (constant S256x512 .f32 0x00000000#32) (ix2 p d) = _
  rw [matmul_zero_at _ dotD_plain]
  refine Finset.sum_congr rfl fun t _ => ?_
  show wtsV (scoresV (k1_pay2 (F := Ideal) v0 v2 v6) v10) (ix2 p t) * shapeCast S2048x512 v23 shapeCasts_S1x2048x512_S2048x512 (ix2 t d) = _
  rw [wtsV_at, shapeCast_1ab_ab_apply]
  refine congrArg (fun f => Cert.Attn.rowWt f t * v23 (ix3 (0 : Fin 1) t d)) (funext fun u => ?_)
  exact scoresV_at _ v10 p u

/-- The value bias of the block. -/
theorem vbias_at (v32 : FVec Ideal S1x512 .f32) (p : Fin 256) (c : Fin 512) :
    k1_pay4 (F := Ideal) v32 (ix2 p c) = v32 (ix2 (0 : Fin 1) c) := by
  show broadcastTo S256x512 (shapeCast S1x512 v32 shapeCasts_S1x512_S1x512) broadcasts_S1x512_S256x512 (ix2 p c) = _
  rw [shapeCast_self, broadcastTo_1b_ab_apply]

/-- Entry (u, p, c) of what the attention body stores, from its three branches. -/
theorem store_at (a b e : FVec Ideal S256x512 .f32) (u : Fin 1) (p : Fin 256) (c : Fin 512) :
    k1_pay1 (F := Ideal) a b e (ix3 u p c) = a (ix2 p c) + (b (ix2 p c) + e (ix2 p c)) := by
  show shapeCast S1x256x512 (addf a (addf b e)) shapeCasts_S256x512_S1x256x512 (ix3 u p c) = _
  rw [shapeCast_ab_1ab_apply]
  rfl

/-- Entry (u, p, c) of what the attention body stores, as the fused arrangement of the loaded blocks' rows. -/
theorem payload_at (v0 : FVec Ideal S1x256x512 .f32) (v10 : FVec Ideal S1x512x2048 .bf16) (v23 : FVec Ideal S1x2048x512 .f32)
    (v2 : FVec Ideal S512x512 .f32) (v6 : FVec Ideal S1x512 .f32) (v28 : FVec Ideal S512x512 .f32) (v32 : FVec Ideal S1x512 .f32)
    (u : Fin 1) (p : Fin 256) (c : Fin 512) :
    k1_pay1 (F := Ideal) (k1_pay2 (F := Ideal) v0 v2 v6) (k1_pay3 (F := Ideal) v0 v2 v6 v10 v23 v28) (k1_pay4 (F := Ideal) v32) (ix3 u p c)
      = Cert.Attn.fused (fun d => v0 (ix3 (0 : Fin 1) p d)) (fun d e => v2 (ix2 d e)) (fun e => v6 (ix2 (0 : Fin 1) e))
          (fun e t => v10 (ix3 (0 : Fin 1) e t)) (fun t d => v23 (ix3 (0 : Fin 1) t d)) (fun d e => v28 (ix2 d e))
          (fun e => v32 (ix2 (0 : Fin 1) e)) c := by
  rw [store_at, attnBranch_at, vbias_at]
  simp only [qin_at]
  rfl

end Cert.KernelIdeal.BodyValue

end
-- ==== Proof.KeyProj.lean ====
/-
  The array the key-projection region leaves, as one function of the three arrays it reads.

  The region's grid has 32 points; point t reads rows t · 1024 … t · 1024 + 1023 of the keys (all 512 columns), the whole
  weight matrix and the whole bias row, and writes the same rows of the result. So block t of the result is the
  restriction to those rows of `K0 A W β (row, c) = (∑ d, A[row, d] · W[d, c]) + β[0, c]`, and the 32 blocks tile the
  32768 rows: the result array is `K0` of the arrays as the region found them.
-/
import proofs.«133986_j1511828489046_2_alg».proof.Proof.Gen.KernelIdeal.Frame
import proofs.«133986_j1511828489046_2_alg».proof.Proof.Body
import Idealize.ShloMosaic.Lib.Pipeline.Value

set_option maxRecDepth 16384

noncomputable section

namespace Cert.KernelIdeal.KeyProj

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The projected rows, as one function of the rows, the weights and the bias row. -/
def K0 (A : S32768x512.Idx → EReal) (W : S512x512.Idx → EReal) (β : S1x512.Idx → EReal) : S32768x512.Idx → EReal :=
  fun i => (∑ d : Fin 512, A (ix2 (⟨(i 0).val, (i 0).isLt⟩ : Fin 32768) d) * W (ix2 d (⟨(i 1).val, (i 1).isLt⟩ : Fin 512)))
    + β (ix2 (0 : Fin 1) (⟨(i 1).val, (i 1).isLt⟩ : Fin 512))

/-- Where each window's block sits at point t: the rows move with the point, everything else stays at the origin. -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt32 (t : Fin cfg0.N) : t.val < 32 := by
  have h := t.isLt
  have hN : cfg0.N = 32 := N_0
  omega

/-- The keys' block at point t, read at (p, d): row t · 1024 + p of the array. -/
theorem rows_at (c : Dev nD) (t : Fin cfg0.N) (p : Fin 1024) (d : Fin 512) :
    iblk0 V c 0 t (ix2 p d) = V c main_v0 (ix2 (⟨t.val * 1024 + p.val, by have := lt32 t; have := p.isLt; omega⟩ : Fin 32768) d) := by
  obtain ⟨e00, e01, -, -, -, -, -, -⟩ := where0 t
  show V c main_v0 (((cfg0.win 0).blk t).view.emb (ix2 p d)) = _
  refine congrArg (V c main_v0) (funext fun a => Fin.ext ?_)
  fin_cases a
  · show win0_0.index t (0 : Fin 2) * 1024 + 1 * p.val = t.val * 1024 + p.val
    rw [e00]; omega
  · show win0_0.index t (1 : Fin 2) * 512 + 1 * d.val = d.val
    rw [e01]; omega

/-- The weights' block is the whole matrix. -/
theorem weights_at (c : Dev nD) (t : Fin cfg0.N) (d : Fin 512) (e : Fin 512) :
    iblk0 V c 1 t (ix2 d e) = V c main_v1 (ix2 d e) := by
  obtain ⟨-, -, e10, e11, -, -, -, -⟩ := where0 t
  show V c main_v1 (((cfg0.win 1).blk t).view.emb (ix2 d e)) = _
  refine congrArg (V c main_v1) (funext fun a => Fin.ext ?_)
  fin_cases a
  · show win0_1.index t (0 : Fin 2) * 512 + 1 * d.val = d.val
    rw [e10]; omega
  · show win0_1.index t (1 : Fin 2) * 512 + 1 * e.val = e.val
    rw [e11]; omega

/-- The bias block is the whole row. -/
theorem bias_at (c : Dev nD) (t : Fin cfg0.N) (u : Fin 1) (e : Fin 512) :
    iblk0 V c 2 t (ix2 u e) = V c main_v2 (ix2 (0 : Fin 1) e) := by
  obtain ⟨-, -, -, -, e20, e21, -, -⟩ := where0 t
  show V c main_v2 (((cfg0.win 2).blk t).view.emb (ix2 u e)) = _
  refine congrArg (V c main_v2) (funext fun a => Fin.ext ?_)
  have hu : u.val = 0 := by omega
  fin_cases a
  · show win0_2.index t (0 : Fin 2) * 1 + 1 * u.val = 0
    rw [e20]; omega
  · show win0_2.index t (1 : Fin 2) * 512 + 1 * e.val = e.val
    rw [e21]; omega

/-- What point t writes back is block t of `K0` of the arrays as the region finds them. -/
theorem flushed_eq (c : Dev nD) (t : Fin cfg0.N) :
    (dat0 V c).flushed 3 t = ((cfg0.win 3).blk t).view.read (Elt Ideal) (K0 (V c main_v0) (V c main_v1) (V c main_v2)) := by
  show (cfg0.win 3).cut (grid0.coords t) ((dat0 V c).after 3 t) = _
  rw [after0_3]
  unfold out0_3
  rw [View.canon_unit_zero zeros2]
  simp only [View.ld_unit_zero (S := S1024x512) zeros2, View.ld_unit_zero (S := S512x512) zeros2, View.ld_unit_zero (S := S1x512) zeros2]
  obtain ⟨-, -, -, -, -, -, e30, e31⟩ := where0 t
  funext j
  obtain ⟨p, q, rfl⟩ : ∃ (p : Fin 1024) (q : Fin 512), j = ix2 p q := ⟨j 0, j 1, eq_ix2 j⟩
  have hemb : ((cfg0.win 3).blk t).view.emb (ix2 p q)
      = ix2 (⟨t.val * 1024 + p.val, by have := lt32 t; have := p.isLt; omega⟩ : Fin 32768) q := by
    funext a
    apply Fin.ext
    fin_cases a
    · show win0_3.index t (0 : Fin 2) * 1024 + 1 * p.val = t.val * 1024 + p.val
      rw [e30]; omega
    · show win0_3.index t (1 : Fin 2) * 512 + 1 * q.val = q.val
      rw [e31]; omega
  show k0_pay1 (F := Ideal) (iblk0 V c 0 t) (iblk0 V c 1 t) (iblk0 V c 2 t) (ix2 p q)
    = K0 (V c main_v0) (V c main_v1) (V c main_v2) (((cfg0.win 3).blk t).view.emb (ix2 p q))
  rw [hemb, BodyValue.kproj_at]
  unfold K0
  refine congrArg₂ (· + ·) (Finset.sum_congr rfl fun d _ => ?_) ?_
  · rw [rows_at, weights_at]
  · rw [bias_at]

/-- An index of the result is in point t's block iff each coordinate is in the block's range. -/
theorem mem_blk (t : Fin cfg0.N) (i : S32768x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v3).slice (win0_3.rect t)).set ↔ _
  rw [View.set_slice_whole, Rect.mem_set_unit]
  exact Iff.rfl

/-- The 32 blocks tile the rows: row r is in the block of point r / 1024. -/
theorem cover (i : S32768x512.Idx) : ∃ t : Fin cfg0.N, (cfg0.win 3).flush t = true ∧ i ∈ ((cfg0.win 3).blk t).view.set := by
  have h0 : (i 0).val < 32768 := (i 0).isLt
  have h1 : (i 1).val < 512 := (i 1).isLt
  have hN : cfg0.N = 32 := N_0
  refine ⟨⟨(i 0).val / 1024, by omega⟩, flush0_3 _, ?_⟩
  rw [mem_blk]
  obtain ⟨-, -, -, -, -, -, e30, e31⟩ := where0 ⟨(i 0).val / 1024, by omega⟩
  intro a
  fin_cases a
  · show win0_3.index _ (0 : Fin 2) * 1024 ≤ (i 0).val ∧ (i 0).val < win0_3.index _ (0 : Fin 2) * 1024 + 1024
    rw [e30]
    show (i 0).val / 1024 * 1024 ≤ (i 0).val ∧ (i 0).val < (i 0).val / 1024 * 1024 + 1024
    omega
  · show win0_3.index _ (1 : Fin 2) * 512 ≤ (i 1).val ∧ (i 1).val < win0_3.index _ (1 : Fin 2) * 512 + 512
    rw [e31]
    omega

/-- The result array after the region. -/
theorem final (c : Dev nD) : (dat0 V c).arrAt 3 cfg0.N = K0 (V c main_v0) (V c main_v1) (V c main_v2) :=
  (dat0 V c).arrAt_eq_of_cover 3 _ (fun t _ => flushed_eq V c t) cover

end Cert.KernelIdeal.KeyProj

end
-- ==== Proof.FusedAttn.lean ====
/-
  The array the fused attention region leaves, as one function of the seven arrays it reads.

  The grid has 16 × 8 points; point t = 8 · b + s reads query rows s · 256 … s · 256 + 255 of batch b, that batch's whole
  re-read projected keys and whole raw keys, and the two weight matrices and two bias rows whole; it writes the same
  256 rows of batch b of the result. So the block is the restriction to those rows of the fused arrangement
  (`Cert.Attn.fused`) at the arrays' rows, and the 128 blocks tile the 16 × 2048 rows.
-/
import proofs.«133986_j1511828489046_2_alg».proof.Proof.Gen.KernelIdeal.Frame
import proofs.«133986_j1511828489046_2_alg».proof.Proof.Body
import Idealize.ShloMosaic.Lib.Pipeline.Value

set_option maxRecDepth 16384

noncomputable section

namespace Cert.KernelIdeal.FusedAttn

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The result, as one function of the queries, the re-read projected keys, the raw keys, and the weights and bias rows. -/
def K1 (Q : S16x2048x512.Idx → EReal) (Kin : S16x512x2048.Idx → EReal) (Kraw : S16x2048x512.Idx → EReal)
    (Wq : S512x512.Idx → EReal) (Bq : S1x512.Idx → EReal) (Wv : S512x512.Idx → EReal) (Bv : S1x512.Idx → EReal) :
    S16x2048x512.Idx → EReal :=
  fun i => Cert.Attn.fused
    (fun d => Q (ix3 (⟨(i 0).val, (i 0).isLt⟩ : Fin 16) (⟨(i 1).val, (i 1).isLt⟩ : Fin 2048) d))
    (fun d e => Wq (ix2 d e)) (fun e => Bq (ix2 (0 : Fin 1) e))
    (fun e u => Kin (ix3 (⟨(i 0).val, (i 0).isLt⟩ : Fin 16) e u))
    (fun t d => Kraw (ix3 (⟨(i 0).val, (i 0).isLt⟩ : Fin 16) t d))
    (fun d e => Wv (ix2 d e)) (fun e => Bv (ix2 (0 : Fin 1) e)) (⟨(i 2).val, (i 2).isLt⟩ : Fin 512)

/-- Where each window's block sits at point t: the batch is t / 8, the row block t % 8; whole arrays stay at the origin. -/
theorem where1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 3) = t.val / 8 ∧ win1_7.index t (1 : Fin 3) = t.val % 8 ∧ win1_7.index t (2 : Fin 3) = 0 :=
  (by decide +kernel : ∀ t : Fin grid1.N, _)

theorem lt128 (t : Fin cfg1.N) : t.val < 128 := by
  have h := t.isLt
  have hN : cfg1.N = 128 := N_1
  omega

/-- The batch of point t. -/
abbrev batchOf (t : Fin cfg1.N) : Fin 16 := ⟨t.val / 8, by have := lt128 t; omega⟩
/-- Row p of point t's query block, in the batch. -/
abbrev rowOf (t : Fin cfg1.N) (p : Fin 256) : Fin 2048 := ⟨t.val % 8 * 256 + p.val, by have := p.isLt; omega⟩

theorem q_at (c : Dev nD) (t : Fin cfg1.N) (u : Fin 1) (p : Fin 256) (d : Fin 512) :
    iblk1 V c 0 t (ix3 u p d) = V c main_arg0 (ix3 (batchOf t) (rowOf t p) d) := by
  obtain ⟨e0, e1, e2, -⟩ := where1 t
  have hu : u.val = 0 := by omega
  show V c main_arg0 (((cfg1.win 0).blk t).view.emb (ix3 u p d)) = _
  refine congrArg (V c main_arg0) (funext fun a => Fin.ext ?_)
  fin_cases a
  · show win1_0.index t (0 : Fin 3) * 1 + 1 * u.val = t.val / 8
    rw [e0]; omega
  · show win1_0.index t (1 : Fin 3) * 256 + 1 * p.val = t.val % 8 * 256 + p.val
    rw [e1]; omega
  · show win1_0.index t (2 : Fin 3) * 512 + 1 * d.val = d.val
    rw [e2]; omega

theorem kin_at (c : Dev nD) (t : Fin cfg1.N) (u : Fin 1) (e : Fin 512) (s : Fin 2048) :
    iblk1 V c 1 t (ix3 u e s) = V c main_v4 (ix3 (batchOf t) e s) := by
  obtain ⟨-, -, -, e0, e1, e2, -⟩ := where1 t
  have hu : u.val = 0 := by omega
  show V c main_v4 (((cfg1.win 1).blk t).view.emb (ix3 u e s)) = _
  refine congrArg (V c main_v4) (funext fun a => Fin.ext ?_)
  fin_cases a
  · show win1_1.index t (0 : Fin 3) * 1 + 1 * u.val = t.val / 8
    rw [e0]; omega
  · show win1_1.index t (1 : Fin 3) * 512 + 1 * e.val = e.val
    rw [e1]; omega
  · show win1_1.index t (2 : Fin 3) * 2048 + 1 * s.val = s.val
    rw [e2]; omega

theorem kraw_at (c : Dev nD) (t : Fin cfg1.N) (u : Fin 1) (s : Fin 2048) (d : Fin 512) :
    iblk1 V c 2 t (ix3 u s d) = V c main_arg1 (ix3 (batchOf t) s d) := by
  obtain ⟨-, -, -, -, -, -, e0, e1, e2, -⟩ := where1 t
  have hu : u.val = 0 := by omega
  show V c main_arg1 (((cfg1.win 2).blk t).view.emb (ix3 u s d)) = _
  refine congrArg (V c main_arg1) (funext fun a => Fin.ext ?_)
  fin_cases a
  · show win1_2.index t (0 : Fin 3) * 1 + 1 * u.val = t.val / 8
    rw [e0]; omega
  · show win1_2.index t (1 : Fin 3) * 2048 + 1 * s.val = s.val
    rw [e1]; omega
  · show win1_2.index t (2 : Fin 3) * 512 + 1 * d.val = d.val
    rw [e2]; omega

theorem wq_at (c : Dev nD) (t : Fin cfg1.N) (d : Fin 512) (e : Fin 512) :
    iblk1 V c 3 t (ix2 d e) = V c main_arg2 (ix2 d e) := by
  obtain ⟨-, -, -, -, -, -, -, -, -, e0, e1, -⟩ := where1 t
  show V c main_arg2 (((cfg1.win 3).blk t).view.emb (ix2 d e)) = _
  refine congrArg (V c main_arg2) (funext fun a => Fin.ext ?_)
  fin_cases a
  · show win1_3.index t (0 : Fin 2) * 512 + 1 * d.val = d.val
    rw [e0]; omega
  · show win1_3.index t (1 : Fin 2) * 512 + 1 * e.val = e.val
    rw [e1]; omega

theorem bq_at (c : Dev nD) (t : Fin cfg1.N) (u : Fin 1) (e : Fin 512) :
    iblk1 V c 4 t (ix2 u e) = V c main_v5 (ix2 (0 : Fin 1) e) := by
  obtain ⟨-, -, -, -, -, -, -, -, -, -, -, e0, e1, -⟩ := where1 t
  have hu : u.val = 0 := by omega
  show V c main_v5 (((cfg1.win 4).blk t).view.emb (ix2 u e)) = _
  refine congrArg (V c main_v5) (funext fun a => Fin.ext ?_)
  fin_cases a
  · show win1_4.index t (0 : Fin 2) * 1 + 1 * u.val = 0
    rw [e0]; omega
  · show win1_4.index t (1 : Fin 2) * 512 + 1 * e.val = e.val
    rw [e1]; omega

theorem wv_at (c : Dev nD) (t : Fin cfg1.N) (d : Fin 512) (e : Fin 512) :
    iblk1 V c 5 t (ix2 d e) = V c main_arg6 (ix2 d e) := by
  obtain ⟨-, -, -, -, -, -, -, -, -, -, -, -, -, e0, e1, -⟩ := where1 t
  show V c main_arg6 (((cfg1.win 5).blk t).view.emb (ix2 d e)) = _
  refine congrArg (V c main_arg6) (funext fun a => Fin.ext ?_)
  fin_cases a
  · show win1_5.index t (0 : Fin 2) * 512 + 1 * d.val = d.val
    rw [e0]; omega
  · show win1_5.index t (1 : Fin 2) * 512 + 1 * e.val = e.val
    rw [e1]; omega

theorem bv_at (c : Dev nD) (t : Fin cfg1.N) (u : Fin 1) (e : Fin 512) :
    iblk1 V c 6 t (ix2 u e) = V c main_v6 (ix2 (0 : Fin 1) e) := by
  obtain ⟨-, -, -, -, -, -, -, -, -, -, -, -, -, -, -, e0, e1, -⟩ := where1 t
  have hu : u.val = 0 := by omega
  show V c main_v6 (((cfg1.win 6).blk t).view.emb (ix2 u e)) = _
  refine congrArg (V c main_v6) (funext fun a => Fin.ext ?_)
  fin_cases a
  · show win1_6.index t (0 : Fin 2) * 1 + 1 * u.val = 0
    rw [e0]; omega
  · show win1_6.index t (1 : Fin 2) * 512 + 1 * e.val = e.val
    rw [e1]; omega

/-- What point t writes back is block t of `K1` of the arrays as the region finds them. -/
theorem flushed_eq (c : Dev nD) (t : Fin cfg1.N) :
    (dat1 V c).flushed 7 t = ((cfg1.win 7).blk t).view.read (Elt Ideal)
      (K1 (V c main_arg0) (V c main_v4) (V c main_arg1) (V c main_arg2) (V c main_v5) (V c main_arg6) (V c main_v6)) := by
  show (cfg1.win 7).cut (grid1.coords t) ((dat1 V c).after 7 t) = _
  rw [after1_7]
  unfold out1_7
  rw [View.canon_unit_zero zeros3]
  simp only [View.ld_unit_zero (S := S1x256x512) zeros3, View.ld_unit_zero (S := S1x512x2048) zeros3,
    View.ld_unit_zero (S := S1x2048x512) zeros3, View.ld_unit_zero (S := S512x512) zeros2, View.ld_unit_zero (S := S1x512) zeros2]
  obtain ⟨-, -, -, -, -, -, -, -, -, -, -, -, -, -, -, -, -, e70, e71, e72⟩ := where1 t
  funext j
  obtain ⟨u, p, q, rfl⟩ : ∃ (u : Fin 1) (p : Fin 256) (q : Fin 512), j = ix3 u p q := ⟨j 0, j 1, j 2, eq_ix3 j⟩
  have hu : u.val = 0 := by omega
  have hemb : ((cfg1.win 7).blk t).view.emb (ix3 u p q) = ix3 (batchOf t) (rowOf t p) q := by
    funext a
    apply Fin.ext
    fin_cases a
    · show win1_7.index t (0 : Fin 3) * 1 + 1 * u.val = t.val / 8
      rw [e70]; omega
    · show win1_7.index t (1 : Fin 3) * 256 + 1 * p.val = t.val % 8 * 256 + p.val
      rw [e71]; omega
    · show win1_7.index t (2 : Fin 3) * 512 + 1 * q.val = q.val
      rw [e72]; omega
  show k1_pay1 (F := Ideal) (k1_pay2 (F := Ideal) (iblk1 V c 0 t) (iblk1 V c 3 t) (iblk1 V c 4 t))
      (k1_pay3 (F := Ideal) (iblk1 V c 0 t) (iblk1 V c 3 t) (iblk1 V c 4 t) (iblk1 V c 1 t) (iblk1 V c 2 t) (iblk1 V c 5 t))
      (k1_pay4 (F := Ideal) (iblk1 V c 6 t)) (ix3 u p q)
    = K1 (V c main_arg0) (V c main_v4) (V c main_arg1) (V c main_arg2) (V c main_v5) (V c main_arg6) (V c main_v6)
        (((cfg1.win 7).blk t).view.emb (ix3 u p q))
  rw [hemb, BodyValue.payload_at]
  unfold K1
  simp only [q_at V c t, kin_at V c t, kraw_at V c t, wq_at V c t, bq_at V c t, wv_at V c t, bv_at V c t]

/-- An index of the result is in point t's block iff each coordinate is in the block's range. -/
theorem mem_blk (t : Fin cfg1.N) (i : S16x2048x512.Idx) :
    i ∈ ((cfg1.win 7).blk t).view.set ↔ ∀ a : Fin 3, win1_7.index t a * S1x256x512.size a ≤ (i a).val ∧ (i a).val < win1_7.index t a * S1x256x512.size a + S1x256x512.size a := by
  show i ∈ ((View.whole main_v7).slice (win1_7.rect t)).set ↔ _
  rw [View.set_slice_whole, Rect.mem_set_unit]
  exact Iff.rfl

/-- The 128 blocks tile the rows: row r of batch b is in the block of point 8 · b + r / 256. -/
theorem cover (i : S16x2048x512.Idx) : ∃ t : Fin cfg1.N, (cfg1.win 7).flush t = true ∧ i ∈ ((cfg1.win 7).blk t).view.set := by
  have h0 : (i 0).val < 16 := (i 0).isLt
  have h1 : (i 1).val < 2048 := (i 1).isLt
  have h2 : (i 2).val < 512 := (i 2).isLt
  have hN : cfg1.N = 128 := N_1
  refine ⟨⟨(i 0).val * 8 + (i 1).val / 256, by omega⟩, flush1_7 _, ?_⟩
  rw [mem_blk]
  obtain ⟨-, -, -, -, -, -, -, -, -, -, -, -, -, -, -, -, -, e70, e71, e72⟩ := where1 ⟨(i 0).val * 8 + (i 1).val / 256, by omega⟩
  intro a
  fin_cases a
  · show win1_7.index _ (0 : Fin 3) * 1 ≤ (i 0).val ∧ (i 0).val < win1_7.index _ (0 : Fin 3) * 1 + 1
    rw [e70]
    show ((i 0).val * 8 + (i 1).val / 256) / 8 * 1 ≤ (i 0).val ∧ (i 0).val < ((i 0).val * 8 + (i 1).val / 256) / 8 * 1 + 1
    omega
  · show win1_7.index _ (1 : Fin 3) * 256 ≤ (i 1).val ∧ (i 1).val < win1_7.index _ (1 : Fin 3) * 256 + 256
    rw [e71]
    show ((i 0).val * 8 + (i 1).val / 256) % 8 * 256 ≤ (i 1).val ∧ (i 1).val < ((i 0).val * 8 + (i 1).val / 256) % 8 * 256 + 256
    omega
  · show win1_7.index _ (2 : Fin 3) * 512 ≤ (i 2).val ∧ (i 2).val < win1_7.index _ (2 : Fin 3) * 512 + 512
    rw [e72]
    omega

/-- The result array after the region. -/
theorem final (c : Dev nD) : (dat1 V c).arrAt 7 cfg1.N
    = K1 (V c main_arg0) (V c main_v4) (V c main_arg1) (V c main_arg2) (V c main_v5) (V c main_arg6) (V c main_v6) :=
  (dat1 V c).arrAt_eq_of_cover 7 _ (fun t _ => flushed_eq V c t) cover

end Cert.KernelIdeal.FusedAttn

end
-- ==== Proof.Glue.lean ====
/-
  The buffer contents at the boundaries of the kernel program's five segments, read down to the launch memory.

  Before the first region the keys are re-read as 32768 × 512, the key weights pass through a change of float format (the
  identity here) and the key bias becomes a row. The first region leaves the projected keys; they are re-read as
  [16, 512, 2048] and the query and value biases become rows. The second region leaves the fused arrangement of those
  arrays, and the last host line re-reads it as [16, 2048 · 512]. The arguments are written by nothing on the way.
-/
import proofs.«133986_j1511828489046_2_alg».proof.Proof.Gen.KernelIdeal.Frame
import proofs.«133986_j1511828489046_2_alg».proof.Proof.KeyProj
import proofs.«133986_j1511828489046_2_alg».proof.Proof.FusedAttn
import Idealize.ShloMosaic.Lib.StableHlo.Run

set_option maxRecDepth 16384

noncomputable section

namespace Cert.KernelIdeal.Glue

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-! ## The arguments, untouched up to the second region's entry -/

theorem W1_arg0 : W1 m ρ c (Proc.devRef .tc main_arg0) = m ((c : Thread nD τ).loc main_arg0) := by
  show StableHlo.after hostOps0 (W0 m ρ c) (Proc.devRef .tc main_arg0) = _
  after_results
theorem W2_arg0 : W2 m ρ c (Proc.devRef .tc main_arg0) = m ((c : Thread nD τ).loc main_arg0) :=
  (W2_of_ne m ρ c main_arg0 (by decide)).trans (W1_arg0 m ρ c)
theorem W3_arg0 : W3 m ρ c (Proc.devRef .tc main_arg0) = m ((c : Thread nD τ).loc main_arg0) := by
  show StableHlo.after hostOps1 (W2 m ρ c) (Proc.devRef .tc main_arg0) = _
  after_results
  exact W2_arg0 m ρ c
theorem W1_arg1 : W1 m ρ c (Proc.devRef .tc main_arg1) = m ((c : Thread nD τ).loc main_arg1) := by
  show StableHlo.after hostOps0 (W0 m ρ c) (Proc.devRef .tc main_arg1) = _
  after_results
theorem W2_arg1 : W2 m ρ c (Proc.devRef .tc main_arg1) = m ((c : Thread nD τ).loc main_arg1) :=
  (W2_of_ne m ρ c main_arg1 (by decide)).trans (W1_arg1 m ρ c)
theorem W3_arg1 : W3 m ρ c (Proc.devRef .tc main_arg1) = m ((c : Thread nD τ).loc main_arg1) := by
  show StableHlo.after hostOps1 (W2 m ρ c) (Proc.devRef .tc main_arg1) = _
  after_results
  exact W2_arg1 m ρ c
theorem W1_arg2 : W1 m ρ c (Proc.devRef .tc main_arg2) = m ((c : Thread nD τ).loc main_arg2) := by
  show StableHlo.after hostOps0 (W0 m ρ c) (Proc.devRef .tc main_arg2) = _
  after_results
theorem W2_arg2 : W2 m ρ c (Proc.devRef .tc main_arg2) = m ((c : Thread nD τ).loc main_arg2) :=
  (W2_of_ne m ρ c main_arg2 (by decide)).trans (W1_arg2 m ρ c)
theorem W3_arg2 : W3 m ρ c (Proc.devRef .tc main_arg2) = m ((c : Thread nD τ).loc main_arg2) := by
  show StableHlo.after hostOps1 (W2 m ρ c) (Proc.devRef .tc main_arg2) = _
  after_results
  exact W2_arg2 m ρ c
theorem W1_arg3 : W1 m ρ c (Proc.devRef .tc main_arg3) = m ((c : Thread nD τ).loc main_arg3) := by
  show StableHlo.after hostOps0 (W0 m ρ c) (Proc.devRef .tc main_arg3) = _
  after_results
theorem W2_arg3 : W2 m ρ c (Proc.devRef .tc main_arg3) = m ((c : Thread nD τ).loc main_arg3) :=
  (W2_of_ne m ρ c main_arg3 (by decide)).trans (W1_arg3 m ρ c)
theorem W3_arg3 : W3 m ρ c (Proc.devRef .tc main_arg3) = m ((c : Thread nD τ).loc main_arg3) := by
  show StableHlo.after hostOps1 (W2 m ρ c) (Proc.devRef .tc main_arg3) = _
  after_results
  exact W2_arg3 m ρ c
theorem W1_arg6 : W1 m ρ c (Proc.devRef .tc main_arg6) = m ((c : Thread nD τ).loc main_arg6) := by
  show StableHlo.after hostOps0 (W0 m ρ c) (Proc.devRef .tc main_arg6) = _
  after_results
theorem W2_arg6 : W2 m ρ c (Proc.devRef .tc main_arg6) = m ((c : Thread nD τ).loc main_arg6) :=
  (W2_of_ne m ρ c main_arg6 (by decide)).trans (W1_arg6 m ρ c)
theorem W3_arg6 : W3 m ρ c (Proc.devRef .tc main_arg6) = m ((c : Thread nD τ).loc main_arg6) := by
  show StableHlo.after hostOps1 (W2 m ρ c) (Proc.devRef .tc main_arg6) = _
  after_results
  exact W2_arg6 m ρ c
theorem W1_arg7 : W1 m ρ c (Proc.devRef .tc main_arg7) = m ((c : Thread nD τ).loc main_arg7) := by
  show StableHlo.after hostOps0 (W0 m ρ c) (Proc.devRef .tc main_arg7) = _
  after_results
theorem W2_arg7 : W2 m ρ c (Proc.devRef .tc main_arg7) = m ((c : Thread nD τ).loc main_arg7) :=
  (W2_of_ne m ρ c main_arg7 (by decide)).trans (W1_arg7 m ρ c)
theorem W3_arg7 : W3 m ρ c (Proc.devRef .tc main_arg7) = m ((c : Thread nD τ).loc main_arg7) := by
  show StableHlo.after hostOps1 (W2 m ρ c) (Proc.devRef .tc main_arg7) = _
  after_results
  exact W2_arg7 m ρ c
theorem W1_arg4 : W1 m ρ c (Proc.devRef .tc main_arg4) = m ((c : Thread nD τ).loc main_arg4) := by
  show StableHlo.after hostOps0 (W0 m ρ c) (Proc.devRef .tc main_arg4) = _
  after_results
theorem W1_arg5 : W1 m ρ c (Proc.devRef .tc main_arg5) = m ((c : Thread nD τ).loc main_arg5) := by
  show StableHlo.after hostOps0 (W0 m ρ c) (Proc.devRef .tc main_arg5) = _
  after_results

/-! ## What the host lines write -/

theorem W1_v0 : W1 m ρ c (Proc.devRef .tc main_v0)
    = shapeCast S32768x512 (m ((c : Thread nD τ).loc main_arg1)) shapeCasts_S16x2048x512_S32768x512 := by
  show StableHlo.after hostOps0 (W0 m ρ c) (Proc.devRef .tc main_v0) = _
  after_results
  rfl
/-- The change of float format is the identity here: the weights as launched. -/
theorem W1_v1 : (W1 m ρ c (Proc.devRef .tc main_v1) : S512x512.Idx → EReal)
    = (m ((c : Thread nD τ).loc main_arg4) : S512x512.Idx → EReal) := by
  show StableHlo.after hostOps0 (W0 m ρ c) (Proc.devRef .tc main_v1) = _
  after_results
  rfl
theorem W1_v2 : W1 m ρ c (Proc.devRef .tc main_v2)
    = shapeCast S1x512 (m ((c : Thread nD τ).loc main_arg5)) shapeCasts_S512_S1x512 := by
  show StableHlo.after hostOps0 (W0 m ρ c) (Proc.devRef .tc main_v2) = _
  after_results
  rfl

/-- The first region leaves the projected keys. -/
theorem W2_v3 : W2 m ρ c (Proc.devRef .tc main_v3)
    = KeyProj.K0 (W1 m ρ c (Proc.devRef .tc main_v0)) (W1 m ρ c (Proc.devRef .tc main_v1)) (W1 m ρ c (Proc.devRef .tc main_v2)) :=
  (W2_arr m ρ c 3).trans (KeyProj.final (V1 m ρ) c)

theorem W3_v4 : W3 m ρ c (Proc.devRef .tc main_v4)
    = shapeCast S16x512x2048 (W2 m ρ c (Proc.devRef .tc main_v3)) shapeCasts_S32768x512_S16x512x2048 := by
  show StableHlo.after hostOps1 (W2 m ρ c) (Proc.devRef .tc main_v4) = _
  after_results
  rfl
theorem W3_v5 : W3 m ρ c (Proc.devRef .tc main_v5)
    = shapeCast S1x512 (m ((c : Thread nD τ).loc main_arg3)) shapeCasts_S512_S1x512 := by
  show StableHlo.after hostOps1 (W2 m ρ c) (Proc.devRef .tc main_v5) = _
  after_results
  rw [W2_arg3]
  rfl
theorem W3_v6 : W3 m ρ c (Proc.devRef .tc main_v6)
    = shapeCast S1x512 (m ((c : Thread nD τ).loc main_arg7)) shapeCasts_S512_S1x512 := by
  show StableHlo.after hostOps1 (W2 m ρ c) (Proc.devRef .tc main_v6) = _
  after_results
  rw [W2_arg7]
  rfl

/-- The second region leaves the fused arrangement of the arrays it found. -/
theorem W4_v7 : W4 m ρ c (Proc.devRef .tc main_v7)
    = FusedAttn.K1 (W3 m ρ c (Proc.devRef .tc main_arg0)) (W3 m ρ c (Proc.devRef .tc main_v4)) (W3 m ρ c (Proc.devRef .tc main_arg1))
        (W3 m ρ c (Proc.devRef .tc main_arg2)) (W3 m ρ c (Proc.devRef .tc main_v5)) (W3 m ρ c (Proc.devRef .tc main_arg6))
        (W3 m ρ c (Proc.devRef .tc main_v6)) :=
  (W4_arr m ρ c 7).trans (FusedAttn.final (V3 m ρ) c)

theorem W5_v8 : W5 m ρ c (Proc.devRef .tc main_v8)
    = shapeCast S16x1048576 (W4 m ρ c (Proc.devRef .tc main_v7)) shapeCasts_S16x2048x512_S16x1048576 := by
  show StableHlo.after hostOps2 (W4 m ρ c) (Proc.devRef .tc main_v8) = _
  after_results
  rfl

/-- The result buffer at the end, down to the launch memory. -/
theorem result_eq : W5 m ρ c (Proc.devRef .tc main_v8)
    = shapeCast S16x1048576
        (FusedAttn.K1 (m ((c : Thread nD τ).loc main_arg0))
          (shapeCast S16x512x2048
            (KeyProj.K0 (shapeCast S32768x512 (m ((c : Thread nD τ).loc main_arg1)) shapeCasts_S16x2048x512_S32768x512)
              (m ((c : Thread nD τ).loc main_arg4))
              (shapeCast S1x512 (m ((c : Thread nD τ).loc main_arg5)) shapeCasts_S512_S1x512))
            shapeCasts_S32768x512_S16x512x2048)
          (m ((c : Thread nD τ).loc main_arg1)) (m ((c : Thread nD τ).loc main_arg2))
          (shapeCast S1x512 (m ((c : Thread nD τ).loc main_arg3)) shapeCasts_S512_S1x512)
          (m ((c : Thread nD τ).loc main_arg6))
          (shapeCast S1x512 (m ((c : Thread nD τ).loc main_arg7)) shapeCasts_S512_S1x512))
        shapeCasts_S16x2048x512_S16x1048576 := by
  rw [W5_v8, W4_v7, W3_arg0, W3_v4, W2_v3, W1_v0, W1_v1, W1_v2, W3_arg1, W3_arg2, W3_v5, W3_arg6, W3_v6]

end Cert.KernelIdeal.Glue

end
-- ==== Proof.KernelValue.lean ====
/-
  The kernel program's result array, before its last re-reading, is the fused arrangement of the launch arrays.

  The only index arithmetic is in the keys' path: the keys re-read as 32768 × 512 rows, projected row by row, and the
  projected rows re-read as [16, 512, 2048]. Entry (b, e, u) of the last array sits at flat position
  (b · 512 + e) · 2048 + u, that is at row b · 2048 + (e · 2048 + u) / 512 and column (e · 2048 + u) % 512 of the projected
  rows, and that row is row (e · 2048 + u) / 512 of batch b of the keys: exactly the specification's `kin`.
-/
import proofs.«133986_j1511828489046_2_alg».proof.Proof.KeyProj
import proofs.«133986_j1511828489046_2_alg».proof.Proof.FusedAttn
import proofs.«133986_j1511828489046_2_alg».proof.Proof.Spec
import Idealize.ShloMosaic.Lib.ValueLayout
import Idealize.ShloMosaic.Lib.Pipeline.Value

noncomputable section

namespace Cert.KernelIdeal.KernelValue

open Idealize.ShloMosaic Idealize.ShloMosaic.ValueIdx Cert.KernelIdeal Cert.KernelIdeal.Gen Cert.Attn

variable (q k : A3) (Wq : M2) (bq : B1) (Wk : M2) (bk : B1) (Wv : M2) (bv : B1)

/-- The projected keys re-read as [16, 512, 2048], at (b, e, u). -/
theorem kinArr_at (b : Fin 16) (e : Fin 512) (u : Fin 2048) :
    shapeCast S16x512x2048
        (KeyProj.K0 (shapeCast S32768x512 k shapeCasts_S16x2048x512_S32768x512) Wk (shapeCast S1x512 bk shapeCasts_S512_S1x512))
        shapeCasts_S32768x512_S16x512x2048 (ix3 b e u)
      = kin k Wk bk b e u := by
  have hb := b.isLt
  have he := e.isLt
  have hu := u.isLt
  refine (shapeCast_apply _ shapeCasts_S32768x512_S16x512x2048 (ix3 b e u)
    (ix2 (⟨b.val * 2048 + (e.val * 2048 + u.val) / 512, by omega⟩ : Fin 32768) (⟨(e.val * 2048 + u.val) % 512, by omega⟩ : Fin 512)) ?_).trans ?_
  · rw [Shape.rowMajor_val_two, Shape.rowMajor_val_three]
    show (b.val * 2048 + (e.val * 2048 + u.val) / 512) * 512 + (e.val * 2048 + u.val) % 512 = (b.val * 512 + e.val) * 2048 + u.val
    omega
  · unfold KeyProj.K0 kin lin
    refine congrArg₂ (· + ·) (Finset.sum_congr rfl fun d _ => congrArg (· * _) ?_) ?_
    · refine shapeCast_apply k shapeCasts_S16x2048x512_S32768x512 _ _ ?_
      rw [Shape.rowMajor_val_three, Shape.rowMajor_val_two]
      rfl
    · exact shapeCast_a_1a_apply bk shapeCasts_S512_S1x512 (0 : Fin 1) _

/-- The second region's result, at the arrays the host lines and the first region hand it, is the fused arrangement of the
    launch arrays. -/
theorem kernel_whole :
    FusedAttn.K1 q
        (shapeCast S16x512x2048
          (KeyProj.K0 (shapeCast S32768x512 k shapeCasts_S16x2048x512_S32768x512) Wk (shapeCast S1x512 bk shapeCasts_S512_S1x512))
          shapeCasts_S32768x512_S16x512x2048)
        k Wq (shapeCast S1x512 bq shapeCasts_S512_S1x512) Wv (shapeCast S1x512 bv shapeCasts_S512_S1x512)
      = wholeK q k Wq bq Wk bk Wv bv := by
  funext i
  unfold FusedAttn.K1 wholeK
  rw [outK_eq_fused]
  exact fused_congr (fun _ => rfl) (fun _ _ => rfl) (fun e => shapeCast_a_1a_apply bq shapeCasts_S512_S1x512 (0 : Fin 1) e)
    (fun e u => kinArr_at k Wk bk _ e u) (fun _ _ => rfl) (fun _ _ => rfl)
    (fun e => shapeCast_a_1a_apply bv shapeCasts_S512_S1x512 (0 : Fin 1) e) _

end Cert.KernelIdeal.KernelValue

end
-- ==== Proof.RefValue.lean ====
/-
  The reference program read entry by entry: before its last re-reading as [16, 2048 · 512], the reference's result at
  (b, r, c) is `lin q Wq bq [b,r,c] + ∑ t, a[b,r,t] · lin k Wv bv [b,t,c]` — the textbook arrangement — where the weights
  `a[b,r,·]` are those of the row of scores `∑ c, lin q Wq bq [b,r,c] · kin[b,c,t]`. Each stage is the generated
  one-operation reading composed with the identification of its index function; the reference's extra `max` of the
  row maximum with -∞ changes nothing, -∞ being the bottom element.
-/
import proofs.«133986_j1511828489046_2_alg».proof.Proof.Gen.ReferenceIdeal.Read
import proofs.«133986_j1511828489046_2_alg».proof.Proof.Spec
import Idealize.ShloMosaic.Lib.ValueIdx
import Idealize.ShloMosaic.Lib.IdealHost
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Attn

/-- A bias broadcast over batches and rows reads the bias at the column. -/
theorem bias2_at (x : B1) (b : Fin 16) (t : Fin 2048) (c : Fin 512) : val_main_v2 (F := Ideal) x (ix3 b t c) = x (ix1 c) := by
  rw [val_main_v2_apply, val_main_v1_apply]
  exact congrArg x (funext fun a => Fin.ext (by fin_cases a; rfl))
theorem bias6_at (x : B1) (b : Fin 16) (t : Fin 2048) (c : Fin 512) : val_main_v6 (F := Ideal) x (ix3 b t c) = x (ix1 c) := by
  rw [val_main_v6_apply, val_main_v5_apply]
  exact congrArg x (funext fun a => Fin.ext (by fin_cases a; rfl))
theorem bias11_at (x : B1) (b : Fin 16) (t : Fin 2048) (c : Fin 512) : val_main_v11 (F := Ideal) x (ix3 b t c) = x (ix1 c) := by
  rw [val_main_v11_apply, val_main_v10_apply]
  exact congrArg x (funext fun a => Fin.ext (by fin_cases a; rfl))

/-- The projected queries. -/
theorem linq_at (x0 : A3) (x2 : M2) (x3 : B1) (b : Fin 16) (r : Fin 2048) (c : Fin 512) :
    val_main_v3 (F := Ideal) x0 x2 x3 (ix3 b r c) = lin x0 x2 x3 b r c := by
  rw [val_main_v3_apply, val_main_v0_apply, bias2_at]
  unfold lin
  refine congrArg (· + x3 (ix1 c)) (Finset.sum_congr rfl fun d _ => ?_)
  refine congrArg₂ (· * ·) (congrArg x0 (funext fun a => Fin.ext (by fin_cases a <;> rfl)))
    (congrArg x2 (funext fun a => Fin.ext (by fin_cases a <;> rfl)))

/-- The projected keys, before their re-reading. -/
theorem link_at (x1 : A3) (x4 : M2) (x5 : B1) (b : Fin 16) (t : Fin 2048) (c : Fin 512) :
    val_main_v7 (F := Ideal) x1 x4 x5 (ix3 b t c) = lin x1 x4 x5 b t c := by
  rw [val_main_v7_apply, val_main_v4_apply, bias6_at]
  unfold lin
  refine congrArg (· + x5 (ix1 c)) (Finset.sum_congr rfl fun d _ => ?_)
  refine congrArg₂ (· * ·) (congrArg x1 (funext fun a => Fin.ext (by fin_cases a <;> rfl)))
    (congrArg x4 (funext fun a => Fin.ext (by fin_cases a <;> rfl)))

/-- The projected values. -/
theorem linv_at (x1 : A3) (x6 : M2) (x7 : B1) (b : Fin 16) (t : Fin 2048) (c : Fin 512) :
    val_main_v12 (F := Ideal) x1 x6 x7 (ix3 b t c) = lin x1 x6 x7 b t c := by
  rw [val_main_v12_apply, val_main_v9_apply, bias11_at]
  unfold lin
  refine congrArg (· + x7 (ix1 c)) (Finset.sum_congr rfl fun d _ => ?_)
  refine congrArg₂ (· * ·) (congrArg x1 (funext fun a => Fin.ext (by fin_cases a <;> rfl)))
    (congrArg x6 (funext fun a => Fin.ext (by fin_cases a <;> rfl)))

/-- The projected keys re-read as [16, 512, 2048]: entry (c, t) of a batch is its flat position c · 2048 + t. -/
theorem kin_at (x1 : A3) (x4 : M2) (x5 : B1) (b : Fin 16) (c : Fin 512) (t : Fin 2048) :
    val_main_v8 (F := Ideal) x1 x4 x5 (ix3 b c t) = kin x1 x4 x5 b c t := by
  have hb := b.isLt
  have hc := c.isLt
  have ht := t.isLt
  have hidx : idx_main_v8 (ix3 b c t)
      = ix3 b (⟨(c.val * 2048 + t.val) / 512, by omega⟩ : Fin 2048) (⟨(c.val * 2048 + t.val) % 512, by omega⟩ : Fin 512) := by
    funext a
    apply Fin.ext
    fin_cases a
    · show ((b.val * 512 + c.val) * 2048 + t.val) / 1048576 = b.val
      omega
    · show ((b.val * 512 + c.val) * 2048 + t.val) / 512 % 2048 = (c.val * 2048 + t.val) / 512
      omega
    · show ((b.val * 512 + c.val) * 2048 + t.val) % 512 = (c.val * 2048 + t.val) % 512
      omega
  rw [val_main_v8_apply, hidx, link_at]
  rfl

/-- The scores. -/
theorem score_at (x0 x1 : Cert.Attn.A3) (x2 : Cert.Attn.M2) (x3 : Cert.Attn.B1) (x4 : Cert.Attn.M2) (x5 : Cert.Attn.B1) (b : Fin 16) (r : Fin 2048) (t : Fin 2048) :
    val_main_v13 (F := Ideal) x0 x1 x2 x3 x4 x5 (ix3 b r t) = score x0 x1 x2 x3 x4 x5 b r t := by
  rw [val_main_v13_apply]
  unfold score
  refine Finset.sum_congr rfl fun c _ => ?_
  have hl : lidx_main_v13 (ix3 b r t) c = ix3 b r c := funext fun a => Fin.ext (by fin_cases a <;> rfl)
  have hr : ridx_main_v13 (ix3 b r t) c = ix3 b c t := funext fun a => Fin.ext (by fin_cases a <;> rfl)
  rw [hl, hr, linq_at, kin_at]

/-- The reduced index (b, r) with the key position put back is (b, r, t). -/
theorem lift_at (h : S16x2048x2048.Reduces [2] S16x2048) (b : Fin 16) (r : Fin 2048) (k : Fin (S16x2048x2048.size 2)) :
    h.lift (ix2 b r) k = ix3 b r (⟨k.val, k.isLt⟩ : Fin 2048) := by
  funext a
  apply Fin.ext
  fin_cases a <;> rfl

/-- The row's maximum: the reference takes the maximum with -∞ once more, which changes nothing. -/
theorem max_at (x0 x1 : Cert.Attn.A3) (x2 : Cert.Attn.M2) (x3 : Cert.Attn.B1) (x4 : Cert.Attn.M2) (x5 : Cert.Attn.B1) (b : Fin 16) (r : Fin 2048) :
    val_main_v16 (F := Ideal) x0 x1 x2 x3 x4 x5 (ix2 b r) = rowMax (score x0 x1 x2 x3 x4 x5 b r) := by
  have hred : S16x2048x2048.Reduces [2] S16x2048 := by decide
  have h14 : val_main_v14 (F := Ideal) x0 x1 x2 x3 x4 x5 (ix2 b r) = rowMax (score x0 x1 x2 x3 x4 x5 b r) := by
    unfold val_main_v14
    rw [Host.reduce_eq_fold_single FloatOps.maximumf _ _ reducesTo_S16x2048x2048_S16x2048_d2 hred h_S_]
    unfold rowMax
    refine congrArg (fun f => Finset.fold max (Ideal.ofBits .f32 0xFF800000#32) f (Finset.univ : Finset (Fin 2048))) (funext fun k => ?_)
    show val_main_v13 (F := Ideal) x0 x1 x2 x3 x4 x5 (hred.lift (ix2 b r) k) = _
    rw [lift_at hred b r k]
    exact score_at x0 x1 x2 x3 x4 x5 b r k
  rw [val_main_v16_apply, h14]
  show max (Ideal.ofBits .f32 0xFF800000#32) _ = _
  rw [negInf]
  exact max_eq_right bot_le

/-- The exponentials. -/
theorem exp_at (x0 x1 : Cert.Attn.A3) (x2 : Cert.Attn.M2) (x3 : Cert.Attn.B1) (x4 : Cert.Attn.M2) (x5 : Cert.Attn.B1) (b : Fin 16) (r : Fin 2048) (t : Fin 2048) :
    val_main_v20 (F := Ideal) x0 x1 x2 x3 x4 x5 (ix3 b r t) = rowExp (score x0 x1 x2 x3 x4 x5 b r) t := by
  have h18 : val_main_v18 (F := Ideal) x0 x1 x2 x3 x4 x5 (ix3 b r t) = rowMax (score x0 x1 x2 x3 x4 x5 b r) := by
    rw [val_main_v18_apply, val_main_v17_apply]
    have hi : idx_main_v17 (idx_main_v18 (ix3 b r t)) = ix2 b r := funext fun a => Fin.ext (by fin_cases a <;> rfl)
    rw [hi, max_at]
  rw [val_main_v20_apply, val_main_v19_apply, h18, score_at]
  rfl

/-- The row's sum of exponentials. -/
theorem sum_at (x0 x1 : Cert.Attn.A3) (x2 : Cert.Attn.M2) (x3 : Cert.Attn.B1) (x4 : Cert.Attn.M2) (x5 : Cert.Attn.B1) (b : Fin 16) (r : Fin 2048) :
    val_main_v21 (F := Ideal) x0 x1 x2 x3 x4 x5 (ix2 b r) = ∑ t : Fin 2048, rowExp (score x0 x1 x2 x3 x4 x5 b r) t := by
  rw [val_main_v21_apply, val_main_cst_1_apply]
  show Ideal.ofBits .f32 0x00000000#32 + _ = _
  rw [Ideal.ofBits_zero_f32, zero_add]
  refine Finset.sum_congr rfl fun t _ => ?_
  have hi : idx_main_v21 (ix2 b r) t = ix3 b r t := funext fun a => Fin.ext (by fin_cases a <;> rfl)
  rw [hi, exp_at]

/-- The attention weights. -/
theorem wt_at (x0 x1 : Cert.Attn.A3) (x2 : Cert.Attn.M2) (x3 : Cert.Attn.B1) (x4 : Cert.Attn.M2) (x5 : Cert.Attn.B1) (b : Fin 16) (r : Fin 2048) (t : Fin 2048) :
    val_main_v24 (F := Ideal) x0 x1 x2 x3 x4 x5 (ix3 b r t) = attn x0 x1 x2 x3 x4 x5 b r t := by
  have h23 : val_main_v23 (F := Ideal) x0 x1 x2 x3 x4 x5 (ix3 b r t) = ∑ u : Fin 2048, rowExp (score x0 x1 x2 x3 x4 x5 b r) u := by
    rw [val_main_v23_apply, val_main_v22_apply]
    have hi : idx_main_v22 (idx_main_v23 (ix3 b r t)) = ix2 b r := funext fun a => Fin.ext (by fin_cases a <;> rfl)
    rw [hi, sum_at]
  rw [val_main_v24_apply, h23, exp_at]
  rfl

/-- The reference's result before its last re-reading: the textbook arrangement. -/
theorem out_at (x0 x1 : Cert.Attn.A3) (x2 : Cert.Attn.M2) (x3 : Cert.Attn.B1) (x4 : Cert.Attn.M2) (x5 : Cert.Attn.B1) (x6 : M2) (x7 : B1) (b : Fin 16) (r : Fin 2048) (c : Fin 512) :
    val_main_v26 (F := Ideal) x0 x1 x2 x3 x4 x5 x6 x7 (ix3 b r c) = outR x0 x1 x2 x3 x4 x5 x6 x7 b r c := by
  rw [val_main_v26_apply, val_main_v25_apply, linq_at]
  unfold outR
  refine congrArg (lin x0 x2 x3 b r c + ·) (Finset.sum_congr rfl fun t _ => ?_)
  have hl : lidx_main_v25 (ix3 b r c) t = ix3 b r t := funext fun a => Fin.ext (by fin_cases a <;> rfl)
  have hr : ridx_main_v25 (ix3 b r c) t = ix3 b t c := funext fun a => Fin.ext (by fin_cases a <;> rfl)
  rw [hl, hr, wt_at, linv_at]

end Cert.ReferenceIdeal.RefValue

end
-- ==== Proof.LibFiniteReal.lean ====
/-
  From "every entry's absolute value compares below +∞" to "every entry is a real number", at the ideal instance.

  A printed finiteness precondition asks, array by array, `jnp.all(jnp.abs(x) < inf)`: a host `abs`, a comparison against the
  broadcast word of +∞, and an all-reduce by `and` into a scalar. `posInf`: that word denotes ⊤. `real_of_abs_lt`: an
  extended real whose absolute value `max x (-x)` compares below ⊤ is neither infinity, hence a real. `all_real`: if the
  and-reduce of the comparisons over the whole array is 1, every entry of the array is real — for any shape and any list
  of reduced axes, the result a scalar. A certificate opens its own precondition's conjunction (`IntOp.andi_eq_one`) and
  hands each conjunct to `all_real`.
-/
import Idealize.ShloMosaic.Lib.ReduceAll
import Idealize.ShloMosaic.Lib.Affine
import Idealize.ShloMosaic.Lib.ValueIdx
import Idealize.ShloMosaic.PureOps.Ideal.Laws

noncomputable section

namespace FiniteReal

open Idealize.ShloMosaic Idealize.ShloMosaic.ValueIdx

/-- A scalar has one index. -/
instance scalarIdx_subsingleton : Subsingleton (⟨0, ![]⟩ : Shape).Idx := ⟨fun _ _ => funext fun d => d.elim0⟩

/-- The word of +∞ denotes the top of the extended reals. -/
theorem posInf : Ideal.ofBits .f32 0x7F800000#32 = (⊤ : EReal) := by simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [posInf] at h
  have hlt : max x (-x) < ⊤ := by
    by_contra hn
    have : Ideal.cmp .olt (max x (-x)) ⊤ = 0#1 := by
      unfold Ideal.cmp
      simp [hn]
    rw [this] at h
    exact absurd h (by decide)
  have h1 : x ≠ ⊤ := fun e => by rw [e] at hlt; simp at hlt
  have h2 : x ≠ ⊥ := fun e => by rw [e] at hlt; simp at hlt
  exact ⟨x.toReal, (EReal.coe_toReal h1 h2).symm⟩

/-- One array's answer: if all its entries' absolute values compare below +∞, every entry is real. -/
theorem all_real {s : Shape} {axes : List (Fin s.rank)} (x : FVec Ideal s .f32)
    (hb : (⟨0, ![]⟩ : Shape).BroadcastsInDim s (![] : Fin 0 → Fin s.rank))
    (h : s.ReducesTo axes (⟨0, ![]⟩ : Shape)) (hu : 0 < (⟨0, ![]⟩ : Shape).numel) (init : IVec (⟨0, ![]⟩ : Shape) 1)
    (e : Host.reduce IntOp.andi (cmpf .olt (Host.absf x)
      (broadcastInDim s ![] hb (constant (F := Ideal) (⟨0, ![]⟩ : Shape) .f32 0x7F800000#32))) init h hu ix0 = 1#1)
    (i : s.Idx) : ∃ r : ℝ, x i = (r : EReal) :=
  real_of_abs_lt (x i) (Host.reduce_andi_all _ init h hu ix0 e i)

end FiniteReal

end
-- ==== Proof.Finite.lean ====
/-
  From the precondition to real numbers. The precondition says, array by array, that every entry's absolute value is
  strictly below +∞, and conjoins the eight answers; each conjunct gives that array's entries real values.
-/
import proofs.«133986_j1511828489046_2_alg».proof.Pre_finite_inputs
import proofs.«133986_j1511828489046_2_alg».proof.Proof.Gen.Pre_finite_inputs
import proofs.«133986_j1511828489046_2_alg».proof.Proof.LibFiniteReal
import Idealize.ShloMosaic.Lib.Affine
import Idealize.ShloMosaic.Lib.ValueIdx

noncomputable section

namespace Cert.Pre_finite_inputs.Finite

open Idealize.ShloMosaic Idealize.ShloMosaic.ValueIdx Cert.Pre_finite_inputs Cert.Pre_finite_inputs.Gen FiniteReal

/-- The precondition gives every entry of every input a real value. -/
theorem reals (a0 a1 : FVec Ideal S16x2048x512 .f32) (a2 : FVec Ideal S512x512 .f32) (a3 : FVec Ideal S512 .f32)
    (a4 : FVec Ideal S512x512 .f32) (a5 : FVec Ideal S512 .f32) (a6 : FVec Ideal S512x512 .f32) (a7 : FVec Ideal S512 .f32)
    (h : fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) := by
  have h0 := congrFun h ix0
  dsimp only [fn, fn_part1, fn_part2] at h0
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨h0, r3⟩ := IntOp.andi_eq_one.1 h0
  obtain ⟨h0, r2⟩ := IntOp.andi_eq_one.1 h0
  obtain ⟨r0, r1⟩ := IntOp.andi_eq_one.1 h0
  exact ⟨all_real a0 _ _ _ _ r0, all_real a1 _ _ _ _ r1, all_real a2 _ _ _ _ r2, all_real a3 _ _ _ _ r3,
    all_real a4 _ _ _ _ r4, all_real a5 _ _ _ _ r5, all_real a6 _ _ _ _ r6, all_real a7 _ _ _ _ r7⟩

end Cert.Pre_finite_inputs.Finite

end
-- ==== Proof.lean ====
/-
  The certificate: a key projection and a fused attention kernel against the textbook attention of the reference.

  At the ideal instance both programs compute, at (b, r, c), `lin q Wq bq [b,r,c]` plus a mixture over the 2048 key
  positions with the softmax weights of the row of scores `∑ c, lin q Wq bq [b,r,c] · kin[b,c,t]`, where `kin` is the
  projected keys re-read, element for element, as [16, 512, 2048]. The reference mixes the projected values
  `lin k Wv bv`; the kernel mixes the raw keys and projects afterwards. The two agree because the weights of a real row
  are real and sum to one (Spec: `rowWt_real`, `mix`), which is where the precondition — every input finite — is used.

  The kernel side: its run names the result buffer at the last boundary's contents (KernelRun); those contents are read
  down to the launch memory through the host lines and the two regions' arrays (Glue, KeyProj, FusedAttn over the bodies'
  entries in Body) and identified with the specification (KernelValue). The reference side: its run is read one
  operation at a time into the specification (RefValue). The three frames are the programs' runs with the results
  dropped; the idealization rewrote nothing, so there is nothing to preserve.
-/
import proofs.«133986_j1511828489046_2_alg».proof.Defs
import proofs.«133986_j1511828489046_2_alg».proof.Proof.Gen.Kernel
import proofs.«133986_j1511828489046_2_alg».proof.Proof.Gen.Kernel.Frame
import proofs.«133986_j1511828489046_2_alg».proof.Proof.Gen.KernelIdeal
import proofs.«133986_j1511828489046_2_alg».proof.Proof.Gen.KernelIdeal.Frame
import proofs.«133986_j1511828489046_2_alg».proof.Proof.Gen.ReferenceIdeal
import proofs.«133986_j1511828489046_2_alg».proof.Proof.Gen.Pre_finite_inputs
import proofs.«133986_j1511828489046_2_alg».proof.Proof.Gen.ReferenceIdeal.Run
import proofs.«133986_j1511828489046_2_alg».proof.Proof.Gen.ReferenceIdeal.Read
import proofs.«133986_j1511828489046_2_alg».proof.Proof.Spec
import proofs.«133986_j1511828489046_2_alg».proof.Proof.KernelRun
import proofs.«133986_j1511828489046_2_alg».proof.Proof.Glue
import proofs.«133986_j1511828489046_2_alg».proof.Proof.KernelValue
import proofs.«133986_j1511828489046_2_alg».proof.Proof.RefValue
import proofs.«133986_j1511828489046_2_alg».proof.Proof.Finite
import Idealize.ShloMosaic.Adequacy
import Idealize.ShloMosaic.Init

noncomputable section

namespace Cert.Proof

open Idealize.ShloMosaic Idealize.ShloMosaic.ValueIdx Idealize.SL.Sem

/-- The word-level kernel program runs and leaves its arguments alone. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's array before its last re-reading is the textbook arrangement of its arguments. -/
theorem ref_whole (q k : Cert.Attn.A3) (Wq : Cert.Attn.M2) (bq : Cert.Attn.B1) (Wk : Cert.Attn.M2) (bk : Cert.Attn.B1)
    (Wv : Cert.Attn.M2) (bv : Cert.Attn.B1) :
    Cert.ReferenceIdeal.Read.val_main_v26 (F := Ideal) q k Wq bq Wk bk Wv bv = Cert.Attn.wholeR q k Wq bq Wk bk Wv bv := by
  funext i
  rw [eq_ix3 i]
  exact Cert.ReferenceIdeal.RefValue.out_at q k Wq bq Wk bk Wv bv (i 0) (i 1) (i 2)

/-- Both programs end with the fused arrangement of the arguments, re-read as [16, 2048 · 512]: the kernel by its regions'
    arrays, the reference because the textbook arrangement equals the fused one on real inputs. -/
theorem algebraic : Cert.algebraic_KernelIdeal_ReferenceIdeal := by
  intro m ρ m' ρ' hpre hagree
  refine ⟨fun c => shapeCast Cert.KernelIdeal.S16x1048576
    (Cert.Attn.wholeK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
    Cert.KernelIdeal.Gen.shapeCasts_S16x2048x512_S16x1048576, ?_, ?_⟩
  · refine (θ_run Cert.KernelIdeal.defs _ _).mono (fun r h c => ⟨(h c).1.trans ?_, (h c).2⟩)
      (Cert.KernelIdeal.Whole.run_named (F := Ideal) m ρ)
    exact (Cert.KernelIdeal.Glue.result_eq m ρ c).trans
      (congrArg (fun X => shapeCast Cert.KernelIdeal.S16x1048576 X Cert.KernelIdeal.Gen.shapeCasts_S16x2048x512_S16x1048576)
        (Cert.KernelIdeal.KernelValue.kernel_whole _ _ _ _ _ _ _ _))
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    obtain ⟨f0, f1, f2, f3, f4, f5, f6, f7⟩ := Cert.Pre_finite_inputs.Finite.reals _ _ _ _ _ _ _ _ (hpre c)
    rw [Cert.ReferenceIdeal.Read.val_main_v27_eq, e0, e1, e2, e3, e4, e5, e6, e7]
    unfold Cert.ReferenceIdeal.Read.val_main_v27
    rw [ref_whole, ← Cert.Attn.wholeK_eq_wholeR _ _ _ _ _ _ _ _ f0 f1 f2 f3 f4 f5 f6 f7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
